-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512x512 .f32) (main_arg9 : FVec F S512 .f32) (main_arg10 : FVec F S512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg5 : FVec F S512x512 .f32) (main_arg6 : FVec F S512 .f32) (main_arg7 : FVec F S512 .f32) (main_arg8 : FVec F S512x512 .f32) (main_arg9 : FVec F S512 .f32) (main_arg10 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_v33

def fn {F : FTy → Type} [FloatOps F] (main_arg0 : FVec F S10000x512 .f32) (main_arg1 : IVec S2x160000 32) (main_arg2 : FVec F S512x512 .f32) (main_arg3 : FVec F S512 .f32) (main_arg4 : FVec F S512 .f32) (main_arg5 : FVec F S512x512 .f32) (main_arg6 : FVec F S512 .f32) (main_arg7 : FVec F S512 .f32) (main_arg8 : FVec F S512x512 .f32) (main_arg9 : FVec F S512 .f32) (main_arg10 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S1000x512 : Shape := ⟨2, ![1000, 512]⟩
abbrev S170000x512 : Shape := ⟨2, ![170000, 512]⟩
abbrev S1x512 : Shape := ⟨2, ![1, 512]⟩

abbrev nBuf : Space → Nat
  | .hbm => 108
  | .vmem => 33
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S10000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S1x160000, .i32⟩
  | .hbm, ⟨16, _⟩ => ⟨S160000, .i32⟩
  | .hbm, ⟨17, _⟩ => ⟨S170000, .i32⟩
  | .hbm, ⟨18, _⟩ => ⟨S_, .f32⟩
  | .hbm, ⟨19, _⟩ => ⟨S170000, .f32⟩
  | .hbm, ⟨20, _⟩ => ⟨S_, .f32⟩
  | .hbm, ⟨21, _⟩ => ⟨S10000, .f32⟩
  | .hbm, ⟨22, _⟩ => ⟨S170000x1, .i32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .i1⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000, .f32⟩
  | .hbm, ⟨31, _⟩ => ⟨S_, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S_, .i32⟩
  | .hbm, ⟨36, _⟩ => ⟨S170000, .i32⟩
  | .hbm, ⟨37, _⟩ => ⟨S170000, .i1⟩
  | .hbm, ⟨38, _⟩ => ⟨S_, .i32⟩
  | .hbm, ⟨39, _⟩ => ⟨S170000, .i32⟩
  | .hbm, ⟨40, _⟩ => ⟨S170000, .i32⟩
  | .hbm, ⟨41, _⟩ => ⟨S170000, .i32⟩
  | .hbm, ⟨42, _⟩ => ⟨S170000x1, .i32⟩
  | .hbm, ⟨43, _⟩ => ⟨S170000, .f32⟩
  | .hbm, ⟨44, _⟩ => ⟨S_, .i32⟩
  | .hbm, ⟨45, _⟩ => ⟨S170000, .i32⟩
  | .hbm, ⟨46, _⟩ => ⟨S170000, .i1⟩
  | .hbm, ⟨47, _⟩ => ⟨S_, .i32⟩
  | .hbm, ⟨48, _⟩ => ⟨S170000, .i32⟩
  | .hbm, ⟨49, _⟩ => ⟨S170000, .i32⟩
  | .hbm, ⟨50, _⟩ => ⟨S170000, .i32⟩
  | .hbm, ⟨51, _⟩ => ⟨S170000x1, .i32⟩
  | .hbm, ⟨52, _⟩ => ⟨S170000, .f32⟩
  | .hbm, ⟨53, _⟩ => ⟨S170000, .f32⟩
  | .hbm, ⟨54, _⟩ => ⟨S10000x512, .f32⟩
  | .hbm, ⟨55, _⟩ => ⟨S_, .i32⟩
  | .hbm, ⟨56, _⟩ => ⟨S170000, .i32⟩
  | .hbm, ⟨57, _⟩ => ⟨S170000, .i1⟩
  | .hbm, ⟨58, _⟩ => ⟨S_, .i32⟩
  | .hbm, ⟨59, _⟩ => ⟨S170000, .i32⟩
  | .hbm, ⟨60, _⟩ => ⟨S170000, .i32⟩
  | .hbm, ⟨61, _⟩ => ⟨S170000, .i32⟩
  | .hbm, ⟨62, _⟩ => ⟨S170000x1, .i32⟩
  | .hbm, ⟨63, _⟩ => ⟨S170000x512, .f32⟩
  | .hbm, ⟨64, _⟩ => ⟨S170000x1, .f32⟩
  | .hbm, ⟨65, _⟩ => ⟨S170000x512, .f32⟩
  | .hbm, ⟨66, _⟩ => ⟨S170000x512, .f32⟩
  | .hbm, ⟨67, _⟩ => ⟨S_, .f32⟩
  | .hbm, ⟨68, _⟩ => ⟨S10000x512, .f32⟩
  | .hbm, ⟨69, _⟩ => ⟨S170000x1, .i32⟩
  | .hbm, ⟨70, _⟩ => ⟨S10000x512, .f32⟩
  | .hbm, ⟨71, _⟩ => ⟨S10000x512, .f32⟩
  | .hbm, ⟨72, _⟩ => ⟨S10000x512, .f32⟩
  | .hbm, ⟨73, _⟩ => ⟨S_, .i32⟩
  | .hbm, ⟨74, _⟩ => ⟨S170000, .i32⟩
  | .hbm, ⟨75, _⟩ => ⟨S170000, .i1⟩
  | .hbm, ⟨76, _⟩ => ⟨S_, .i32⟩
  | .hbm, ⟨77, _⟩ => ⟨S170000, .i32⟩
  | .hbm, ⟨78, _⟩ => ⟨S170000, .i32⟩
  | .hbm, ⟨79, _⟩ => ⟨S170000, .i32⟩
  | .hbm, ⟨80, _⟩ => ⟨S170000x1, .i32⟩
  | .hbm, ⟨81, _⟩ => ⟨S170000x512, .f32⟩
  | .hbm, ⟨82, _⟩ => ⟨S170000x1, .f32⟩
  | .hbm, ⟨83, _⟩ => ⟨S170000x512, .f32⟩
  | .hbm, ⟨84, _⟩ => ⟨S170000x512, .f32⟩
  | .hbm, ⟨85, _⟩ => ⟨S_, .f32⟩
  | .hbm, ⟨86, _⟩ => ⟨S10000x512, .f32⟩
  | .hbm, ⟨87, _⟩ => ⟨S170000x1, .i32⟩
  | .hbm, ⟨88, _⟩ => ⟨S10000x512, .f32⟩
  | .hbm, ⟨89, _⟩ => ⟨S10000x512, .f32⟩
  | .hbm, ⟨90, _⟩ => ⟨S10000x512, .f32⟩
  | .hbm, ⟨91, _⟩ => ⟨S_, .i32⟩
  | .hbm, ⟨92, _⟩ => ⟨S170000, .i32⟩
  | .hbm, ⟨93, _⟩ => ⟨S170000, .i1⟩
  | .hbm, ⟨94, _⟩ => ⟨S_, .i32⟩
  | .hbm, ⟨95, _⟩ => ⟨S170000, .i32⟩
  | .hbm, ⟨96, _⟩ => ⟨S170000, .i32⟩
  | .hbm, ⟨97, _⟩ => ⟨S170000, .i32⟩
  | .hbm, ⟨98, _⟩ => ⟨S170000x1, .i32⟩
  | .hbm, ⟨99, _⟩ => ⟨S170000x512, .f32⟩
  | .hbm, ⟨100, _⟩ => ⟨S170000x1, .f32⟩
  | .hbm, ⟨101, _⟩ => ⟨S170000x512, .f32⟩
  | .hbm, ⟨102, _⟩ => ⟨S170000x512, .f32⟩
  | .hbm, ⟨103, _⟩ => ⟨S_, .f32⟩
  | .hbm, ⟨104, _⟩ => ⟨S10000x512, .f32⟩
  | .hbm, ⟨105, _⟩ => ⟨S170000x1, .i32⟩
  | .hbm, ⟨106, _⟩ => ⟨S10000x512, .f32⟩
  | .hbm, ⟨107, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S512, .f32⟩
  | .local _ .vmem, ⟨8, _⟩ => ⟨S512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S512x512, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S512, .f32⟩
  | .local _ .vmem, ⟨19, _⟩ => ⟨S512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S512x512, .f32⟩
  | .local _ .vmem, ⟨25, _⟩ => ⟨S1000x512, .f32⟩
  | .local _ .vmem, ⟨26, _⟩ => ⟨S1000x512, .f32⟩
  | .local _ .vmem, ⟨27, _⟩ => ⟨S1000x512, .f32⟩
  | .local _ .vmem, ⟨28, _⟩ => ⟨S1000x512, .f32⟩
  | .local _ .vmem, ⟨29, _⟩ => ⟨S512, .f32⟩
  | .local _ .vmem, ⟨30, _⟩ => ⟨S512, .f32⟩
  | .local _ .vmem, ⟨31, _⟩ => ⟨S1000x512, .f32⟩
  | .local _ .vmem, ⟨32, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  shapeCasts_S1000x512_S1000x512 : S1000x512.ShapeCasts S1000x512
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S1000x512_S512x512_S1000x512_1_0_0_1_n_n_wf : DotDims.WF S1000x512 S512x512 S1000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S512.size a
  hwx1_1 : ∀ i : grid1.Coords, EltTy.bits .f32 = 32 ∨ (Rect.block (s := S512) S512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S10000x512.size a
  hwx1_3 : ∀ i : grid1.Coords, EltTy.bits .f32 = 32 ∨ (Rect.block (s := S10000x512) S1000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x512.size a ≤ S10000x512.size a
  hwx2_2 : ∀ i : grid2.Coords, EltTy.bits .f32 = 32 ∨ (Rect.block (s := S10000x512) S1000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S10000x512.size a
  hwx3_0 : ∀ i : grid3.Coords, EltTy.bits .f32 = 32 ∨ (Rect.block (s := S10000x512) S1000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512.size a ≤ S512.size a
  hwx3_1 : ∀ i : grid3.Coords, EltTy.bits .f32 = 32 ∨ (Rect.block (s := S512) S512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512.size a ≤ S512.size a
  hwx3_2 : ∀ i : grid3.Coords, EltTy.bits .f32 = 32 ∨ (Rect.block (s := S512) S512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x512.size a ≤ S10000x512.size a
  hwx3_3 : ∀ i : grid3.Coords, EltTy.bits .f32 = 32 ∨ (Rect.block (s := S10000x512) S1000x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S10000x512.size a
  hwx4_0 : ∀ i : grid4.Coords, EltTy.bits .f32 = 32 ∨ (Rect.block (s := S10000x512) S1000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x512.size a ≤ S10000x512.size a
  hwx4_2 : ∀ i : grid4.Coords, EltTy.bits .f32 = 32 ∨ (Rect.block (s := S10000x512) S1000x512.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x512.size a ≤ S10000x512.size a
  hwx5_0 : ∀ i : grid5.Coords, EltTy.bits .f32 = 32 ∨ (Rect.block (s := S10000x512) S1000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512.size a ≤ S512.size a
  hwx5_1 : ∀ i : grid5.Coords, EltTy.bits .f32 = 32 ∨ (Rect.block (s := S512) S512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512.size a ≤ S512.size a
  hwx5_2 : ∀ i : grid5.Coords, EltTy.bits .f32 = 32 ∨ (Rect.block (s := S512) S512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x512.size a ≤ S10000x512.size a
  hwx5_3 : ∀ i : grid5.Coords, EltTy.bits .f32 = 32 ∨ (Rect.block (s := S10000x512) S1000x512.size (cc5_transform_3 i) (hinb5_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v61) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1000x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S1000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1000x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S1x512 : Shape := ⟨2, ![1, 512]⟩

abbrev nBuf : Space → Nat
  | .hbm => 221
  | .vmem => 0
  | .smem => 0
  | _ => 0

abbrev hbmTy0_0 (i : Nat) : BufTy := match i % 128 with
  | 0 => ⟨S10000x512, .f32⟩
  | 1 => ⟨S2x160000, .i32⟩
  | 2 => ⟨S512x512, .f32⟩
  | 3 => ⟨S512, .f32⟩
  | 4 => ⟨S512, .f32⟩
  | 5 => ⟨S512x512, .f32⟩
  | 6 => ⟨S512, .f32⟩
  | 7 => ⟨S512, .f32⟩
  | 8 => ⟨S512x512, .f32⟩
  | 9 => ⟨S512, .f32⟩
  | 10 => ⟨S512, .f32⟩
  | 11 => ⟨S10000, .i32⟩
  | 12 => ⟨S1x160000, .i32⟩
  | 13 => ⟨S160000, .i32⟩
  | 14 => ⟨S170000, .i32⟩
  | 15 => ⟨S1x160000, .i32⟩
  | 16 => ⟨S160000, .i32⟩
  | 17 => ⟨S170000, .i32⟩
  | 18 => ⟨S10000x512, .f32⟩
  | 19 => ⟨S_, .f32⟩
  | 20 => ⟨S170000, .f32⟩
  | 21 => ⟨S_, .f32⟩
  | 22 => ⟨S10000, .f32⟩
  | 23 => ⟨S170000x1, .i32⟩
  | 24 => ⟨S10000, .f32⟩
  | 25 => ⟨S_, .f32⟩
  | 26 => ⟨S10000, .f32⟩
  | 27 => ⟨S10000, .i1⟩
  | 28 => ⟨S_, .f32⟩
  | 29 => ⟨S10000, .f32⟩
  | 30 => ⟨S10000, .f32⟩
  | 31 => ⟨S10000, .f32⟩
  | 32 => ⟨S_, .f32⟩
  | 33 => ⟨S_, .f32⟩
  | 34 => ⟨S10000, .f32⟩
  | 35 => ⟨S10000, .f32⟩
  | 36 => ⟨S_, .i32⟩
  | 37 => ⟨S170000, .i32⟩
  | 38 => ⟨S170000, .i1⟩
  | 39 => ⟨S_, .i32⟩
  | 40 => ⟨S170000, .i32⟩
  | 41 => ⟨S170000, .i32⟩
  | 42 => ⟨S170000, .i32⟩
  | 43 => ⟨S170000x1, .i32⟩
  | 44 => ⟨S170000, .f32⟩
  | 45 => ⟨S_, .i32⟩
  | 46 => ⟨S170000, .i32⟩
  | 47 => ⟨S170000, .i1⟩
  | 48 => ⟨S_, .i32⟩
  | 49 => ⟨S170000, .i32⟩
  | 50 => ⟨S170000, .i32⟩
  | 51 => ⟨S170000, .i32⟩
  | 52 => ⟨S170000x1, .i32⟩
  | 53 => ⟨S170000, .f32⟩
  | 54 => ⟨S170000, .f32⟩
  | 55 => ⟨S_, .i32⟩
  | 56 => ⟨S170000, .i32⟩
  | 57 => ⟨S170000, .i1⟩
  | 58 => ⟨S_, .i32⟩
  | 59 => ⟨S170000, .i32⟩
  | 60 => ⟨S170000, .i32⟩
  | 61 => ⟨S170000, .i32⟩
  | 62 => ⟨S170000x1, .i32⟩
  | 63 => ⟨S170000x512, .f32⟩
  | 64 => ⟨S170000x1, .f32⟩
  | 65 => ⟨S170000x512, .f32⟩
  | 66 => ⟨S170000x512, .f32⟩
  | 67 => ⟨S_, .f32⟩
  | 68 => ⟨S10000x512, .f32⟩
  | 69 => ⟨S170000x1, .i32⟩
  | 70 => ⟨S10000x512, .f32⟩
  | 71 => ⟨S1x512, .f32⟩
  | 72 => ⟨S10000x512, .f32⟩
  | 73 => ⟨S10000x512, .f32⟩
  | 74 => ⟨S_, .f32⟩
  | 75 => ⟨S10000x512, .f32⟩
  | 76 => ⟨S10000x512, .i1⟩
  | 77 => ⟨S1x512, .f32⟩
  | 78 => ⟨S10000x512, .f32⟩
  | 79 => ⟨S10000x512, .f32⟩
  | 80 => ⟨S10000x512, .f32⟩
  | 81 => ⟨S10000, .i32⟩
  | 82 => ⟨S1x160000, .i32⟩
  | 83 => ⟨S160000, .i32⟩
  | 84 => ⟨S170000, .i32⟩
  | 85 => ⟨S1x160000, .i32⟩
  | 86 => ⟨S160000, .i32⟩
  | 87 => ⟨S170000, .i32⟩
  | 88 => ⟨S10000x512, .f32⟩
  | 89 => ⟨S_, .f32⟩
  | 90 => ⟨S170000, .f32⟩
  | 91 => ⟨S_, .f32⟩
  | 92 => ⟨S10000, .f32⟩
  | 93 => ⟨S170000x1, .i32⟩
  | 94 => ⟨S10000, .f32⟩
  | 95 => ⟨S_, .f32⟩
  | 96 => ⟨S10000, .f32⟩
  | 97 => ⟨S10000, .i1⟩
  | 98 => ⟨S_, .f32⟩
  | 99 => ⟨S10000, .f32⟩
  | 100 => ⟨S10000, .f32⟩
  | 101 => ⟨S10000, .f32⟩
  | 102 => ⟨S_, .f32⟩
  | 103 => ⟨S_, .f32⟩
  | 104 => ⟨S10000, .f32⟩
  | 105 => ⟨S10000, .f32⟩
  | 106 => ⟨S_, .i32⟩
  | 107 => ⟨S170000, .i32⟩
  | 108 => ⟨S170000, .i1⟩
  | 109 => ⟨S_, .i32⟩
  | 110 => ⟨S170000, .i32⟩
  | 111 => ⟨S170000, .i32⟩
  | 112 => ⟨S170000, .i32⟩
  | 113 => ⟨S170000x1, .i32⟩
  | 114 => ⟨S170000, .f32⟩
  | 115 => ⟨S_, .i32⟩
  | 116 => ⟨S170000, .i32⟩
  | 117 => ⟨S170000, .i1⟩
  | 118 => ⟨S_, .i32⟩
  | 119 => ⟨S170000, .i32⟩
  | 120 => ⟨S170000, .i32⟩
  | 121 => ⟨S170000, .i32⟩
  | 122 => ⟨S170000x1, .i32⟩
  | 123 => ⟨S170000, .f32⟩
  | 124 => ⟨S170000, .f32⟩
  | 125 => ⟨S_, .i32⟩
  | 126 => ⟨S170000, .i32⟩
  | 127 => ⟨S170000, .i1⟩
  | _ => ⟨S10000x512, .f32⟩

abbrev hbmTy0_1 (i : Nat) : BufTy := match i % 128 with
  | 0 => ⟨S_, .i32⟩
  | 1 => ⟨S170000, .i32⟩
  | 2 => ⟨S170000, .i32⟩
  | 3 => ⟨S170000, .i32⟩
  | 4 => ⟨S170000x1, .i32⟩
  | 5 => ⟨S170000x512, .f32⟩
  | 6 => ⟨S170000x1, .f32⟩
  | 7 => ⟨S170000x512, .f32⟩
  | 8 => ⟨S170000x512, .f32⟩
  | 9 => ⟨S_, .f32⟩
  | 10 => ⟨S10000x512, .f32⟩
  | 11 => ⟨S170000x1, .i32⟩
  | 12 => ⟨S10000x512, .f32⟩
  | 13 => ⟨S1x512, .f32⟩
  | 14 => ⟨S10000x512, .f32⟩
  | 15 => ⟨S10000x512, .f32⟩
  | 16 => ⟨S_, .f32⟩
  | 17 => ⟨S10000x512, .f32⟩
  | 18 => ⟨S10000x512, .i1⟩
  | 19 => ⟨S1x512, .f32⟩
  | 20 => ⟨S10000x512, .f32⟩
  | 21 => ⟨S10000x512, .f32⟩
  | 22 => ⟨S10000x512, .f32⟩
  | 23 => ⟨S10000, .i32⟩
  | 24 => ⟨S1x160000, .i32⟩
  | 25 => ⟨S160000, .i32⟩
  | 26 => ⟨S170000, .i32⟩
  | 27 => ⟨S1x160000, .i32⟩
  | 28 => ⟨S160000, .i32⟩
  | 29 => ⟨S170000, .i32⟩
  | 30 => ⟨S10000x512, .f32⟩
  | 31 => ⟨S_, .f32⟩
  | 32 => ⟨S170000, .f32⟩
  | 33 => ⟨S_, .f32⟩
  | 34 => ⟨S10000, .f32⟩
  | 35 => ⟨S170000x1, .i32⟩
  | 36 => ⟨S10000, .f32⟩
  | 37 => ⟨S_, .f32⟩
  | 38 => ⟨S10000, .f32⟩
  | 39 => ⟨S10000, .i1⟩
  | 40 => ⟨S_, .f32⟩
  | 41 => ⟨S10000, .f32⟩
  | 42 => ⟨S10000, .f32⟩
  | 43 => ⟨S10000, .f32⟩
  | 44 => ⟨S_, .f32⟩
  | 45 => ⟨S_, .f32⟩
  | 46 => ⟨S10000, .f32⟩
  | 47 => ⟨S10000, .f32⟩
  | 48 => ⟨S_, .i32⟩
  | 49 => ⟨S170000, .i32⟩
  | 50 => ⟨S170000, .i1⟩
  | 51 => ⟨S_, .i32⟩
  | 52 => ⟨S170000, .i32⟩
  | 53 => ⟨S170000, .i32⟩
  | 54 => ⟨S170000, .i32⟩
  | 55 => ⟨S170000x1, .i32⟩
  | 56 => ⟨S170000, .f32⟩
  | 57 => ⟨S_, .i32⟩
  | 58 => ⟨S170000, .i32⟩
  | 59 => ⟨S170000, .i1⟩
  | 60 => ⟨S_, .i32⟩
  | 61 => ⟨S170000, .i32⟩
  | 62 => ⟨S170000, .i32⟩
  | 63 => ⟨S170000, .i32⟩
  | 64 => ⟨S170000x1, .i32⟩
  | 65 => ⟨S170000, .f32⟩
  | 66 => ⟨S170000, .f32⟩
  | 67 => ⟨S_, .i32⟩
  | 68 => ⟨S170000, .i32⟩
  | 69 => ⟨S170000, .i1⟩
  | 70 => ⟨S_, .i32⟩
  | 71 => ⟨S170000, .i32⟩
  | 72 => ⟨S170000, .i32⟩
  | 73 => ⟨S170000, .i32⟩
  | 74 => ⟨S170000x1, .i32⟩
  | 75 => ⟨S170000x512, .f32⟩
  | 76 => ⟨S170000x1, .f32⟩
  | 77 => ⟨S170000x512, .f32⟩
  | 78 => ⟨S170000x512, .f32⟩
  | 79 => ⟨S_, .f32⟩
  | 80 => ⟨S10000x512, .f32⟩
  | 81 => ⟨S170000x1, .i32⟩
  | 82 => ⟨S10000x512, .f32⟩
  | 83 => ⟨S1x512, .f32⟩
  | 84 => ⟨S10000x512, .f32⟩
  | 85 => ⟨S10000x512, .f32⟩
  | 86 => ⟨S_, .f32⟩
  | 87 => ⟨S10000x512, .f32⟩
  | 88 => ⟨S10000x512, .i1⟩
  | 89 => ⟨S1x512, .f32⟩
  | 90 => ⟨S10000x512, .f32⟩
  | 91 => ⟨S10000x512, .f32⟩
  | 92 => ⟨S10000x512, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_call2_v0 : Ref sig .tc := ⟨.hbm, 103, rfl⟩
abbrev main_call2_v1 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_18 : Ref sig .tc := ⟨.hbm, 115, rfl⟩
abbrev main_v80 : Ref sig .tc := ⟨.hbm, 116, rfl⟩
abbrev main_v81 : Ref sig .tc := ⟨.hbm, 117, rfl⟩
abbrev main_c_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_20 : Ref sig .tc := ⟨.hbm, 125, rfl⟩
abbrev main_v88 : Ref sig .tc := ⟨.hbm, 126, rfl⟩
abbrev main_v89 : Ref sig .tc := ⟨.hbm, 127, rfl⟩
abbrev main_c_21 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_22 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_23 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_24 : Ref sig .tc := ⟨.hbm, 159, rfl⟩
abbrev main_v118 : Ref sig .tc := ⟨.hbm, 160, rfl⟩
abbrev main_cst_25 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_26 : Ref sig .tc := ⟨.hbm, 165, rfl⟩
abbrev main_v122 : Ref sig .tc := ⟨.hbm, 166, rfl⟩
abbrev main_v123 : Ref sig .tc := ⟨.hbm, 167, rfl⟩
abbrev main_cst_27 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_28 : Ref sig .tc := ⟨.hbm, 172, rfl⟩
abbrev main_call4_v0 : Ref sig .tc := ⟨.hbm, 173, rfl⟩
abbrev main_call4_v1 : Ref sig .tc := ⟨.hbm, 174, rfl⟩
abbrev main_v127 : Ref sig .tc := ⟨.hbm, 175, rfl⟩
abbrev main_c_29 : Ref sig .tc := ⟨.hbm, 176, rfl⟩
abbrev main_v128 : Ref sig .tc := ⟨.hbm, 177, rfl⟩
abbrev main_v129 : Ref sig .tc := ⟨.hbm, 178, rfl⟩
abbrev main_c_30 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_c_31 : Ref sig .tc := ⟨.hbm, 185, rfl⟩
abbrev main_v135 : Ref sig .tc := ⟨.hbm, 186, rfl⟩
abbrev main_v136 : Ref sig .tc := ⟨.hbm, 187, rfl⟩
abbrev main_c_32 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_c_33 : Ref sig .tc := ⟨.hbm, 195, rfl⟩
abbrev main_v143 : Ref sig .tc := ⟨.hbm, 196, rfl⟩
abbrev main_v144 : Ref sig .tc := ⟨.hbm, 197, rfl⟩
abbrev main_c_34 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_35 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_36 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  dot_S10000x512_S512x512_S10000x512_1_0_0_1_n_n_wf : DotDims.WF S10000x512 S512x512 S10000x512 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf

class Facts : Prop extends Facts₀ where

variable [Facts]
-- ==== Proof.KernelRun.lean ====
/-
  The idealized kernel's run with its result array named.  @main is six TensorCore regions among stretches of host
  operations; the segment-by-segment run leaves every unscoped buffer at the last boundary's contents, so the result
  array ends at that boundary's value of its buffer, and the eleven argument arrays end as launched.
-/
import proofs.«138660_j82712480186991_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array then holds what the last
    segment boundary holds at its buffer, and every argument array is as launched. -/
theorem run_main : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Hand

end
-- ==== Proof.RefStages.lean ====
/-
  The reference network as three applications of one layer.  A layer multiplies the node features by a weight matrix,
  gathers the product's rows along the edge list (the given edges followed by one self-loop per node), scales each
  gathered row by the symmetric degree normalisation of its edge, adds the scaled rows into their target nodes, adds
  the bias to every row, and applies the leaky rectifier with a per-column slope.  The edge list and the
  normalisation depend on the edge array alone, so the three layers' copies of them are one function of it.
-/
import proofs.«138660_j82712480186991_1_alg».proof.Proof.ReadPatched

set_option maxRecDepth 16384

noncomputable section

namespace Cert.Hand.Ref

open Cert.ReferenceIdeal Cert.ReferenceIdeal.ReadP Idealize.ShloMosaic Idealize.ShloMosaic.TcCoe

variable {F : FTy → Type} [FloatOps F]

/-- The dense product of the node features with a weight matrix. -/
abbrev mm (x : (⟨S10000x512, .f32⟩ : BufTy).Contents (Elt F)) (w : (⟨S512x512, .f32⟩ : BufTy).Contents (Elt F)) : (⟨S10000x512, .f32⟩ : BufTy).Contents (Elt F) :=
  val_main_v7 (F := F) x w

/-- The normalised neighbourhood sum: row `n` of the result is the sum, over the edges (and self-loops) whose target
    is `n`, of the edge's normalisation times the source node's row of `h`. -/
def agg (e : (⟨S2x160000, .i32⟩ : BufTy).Contents (Elt F)) (h : (⟨S10000x512, .f32⟩ : BufTy).Contents (Elt F)) : (⟨S10000x512, .f32⟩ : BufTy).Contents (Elt F) :=
  Host.scatterAdd scatter_S10000x512_S170000x1_S170000x512_1_0_0_1 (val_main_v43 (F := F)) (val_main_v44 (F := F) e)
    (mulf (Host.gather gather_S10000x512_S170000x1_S170000x512_1_0_n_n_0_1_1512 h (val_main_v38 (F := F) e)) (val_main_v41 (F := F) e))

/-- Bias, then the leaky rectifier: with `p = z + b` (the bias along the columns), `p` where `p ≥ 0` and `a · p`
    elsewhere (the slope along the columns). -/
def act (z : (⟨S10000x512, .f32⟩ : BufTy).Contents (Elt F)) (b a : (⟨S512, .f32⟩ : BufTy).Contents (Elt F)) : (⟨S10000x512, .f32⟩ : BufTy).Contents (Elt F) :=
  select (cmpf .oge (addf z (val_main_v47 (F := F) b)) (val_main_v49 (F := F))) (addf z (val_main_v47 (F := F) b))
    (mulf (val_main_v52 (F := F) a) (addf z (val_main_v47 (F := F) b)))

/-- One layer. -/
abbrev layer (e : (⟨S2x160000, .i32⟩ : BufTy).Contents (Elt F)) (x : (⟨S10000x512, .f32⟩ : BufTy).Contents (Elt F)) (w : (⟨S512x512, .f32⟩ : BufTy).Contents (Elt F)) (b a : (⟨S512, .f32⟩ : BufTy).Contents (Elt F)) : (⟨S10000x512, .f32⟩ : BufTy).Contents (Elt F) :=
  act (agg e (mm x w)) b a

/-- The column index of a row-by-column index, as the index of a length-512 vector. -/
abbrev col (i : S10000x512.Idx) : S512.Idx := idx_main_v46 (idx_main_v47 i)

/-- A layer's last step at one entry. -/
theorem act_apply (z : (⟨S10000x512, .f32⟩ : BufTy).Contents (Elt F)) (b a : (⟨S512, .f32⟩ : BufTy).Contents (Elt F)) (i : S10000x512.Idx) :
    act (F := F) z b a i = Scalar.select (FloatOps.cmpf .oge (FloatOps.addf (z i) (b (col i))) (FloatOps.ofBits .f32 0x00000000#32))
      (FloatOps.addf (z i) (b (col i))) (FloatOps.mulf (a (col i)) (FloatOps.addf (z i) (b (col i)))) := by
  unfold act
  show Scalar.select (FloatOps.cmpf .oge (FloatOps.addf (z i) (val_main_v47 (F := F) b i)) (val_main_v49 (F := F) i))
      (FloatOps.addf (z i) (val_main_v47 (F := F) b i)) (FloatOps.mulf (val_main_v52 (F := F) a i) (FloatOps.addf (z i) (val_main_v47 (F := F) b i))) = _
  rw [val_main_v47_apply, val_main_v46_apply, val_main_v49_apply, val_main_cst_10_apply, val_main_v52_apply, val_main_v51_apply]

/-- The reference's result is the third layer of the second of the first. -/
theorem net_eq (x0 : (⟨S10000x512, .f32⟩ : BufTy).Contents (Elt F)) (x1 : (⟨S2x160000, .i32⟩ : BufTy).Contents (Elt F)) (x2 : (⟨S512x512, .f32⟩ : BufTy).Contents (Elt F)) (x3 x4 : (⟨S512, .f32⟩ : BufTy).Contents (Elt F))
    (x5 : (⟨S512x512, .f32⟩ : BufTy).Contents (Elt F)) (x6 x7 : (⟨S512, .f32⟩ : BufTy).Contents (Elt F)) (x8 : (⟨S512x512, .f32⟩ : BufTy).Contents (Elt F)) (x9 x10 : (⟨S512, .f32⟩ : BufTy).Contents (Elt F)) :
    val_main_v164 (F := F) x0 x1 x2 x3 x4 x5 x6 x7 x8 x9 x10
      = layer x1 (layer x1 (layer x1 x0 x2 x3 x4) x5 x6 x7) x8 x9 x10 := by
  have l1 : val_main_v54 (F := F) x0 x1 x2 x3 x4 = layer x1 x0 x2 x3 x4 := rfl
  have l2 : val_main_v109 (F := F) x0 x1 x2 x3 x4 x5 x6 x7 = layer x1 (val_main_v54 (F := F) x0 x1 x2 x3 x4) x5 x6 x7 := rfl
  have l3 : val_main_v164 (F := F) x0 x1 x2 x3 x4 x5 x6 x7 x8 x9 x10 = layer x1 (val_main_v109 (F := F) x0 x1 x2 x3 x4 x5 x6 x7) x8 x9 x10 := rfl
  rw [l3, l2, l1]

end Cert.Hand.Ref

end
-- ==== Proof.KernelBlocks.lean ====
/-
  One grid point of each kind of kernel, at the ideal instance.
  A product kernel multiplies a block of 1000 rows of the features by the whole weight matrix: entry (p, q) of its
  result is the sum over k of the block's (p, k) entry times the weight's (k, q) entry (the change of format to bf16
  before the product is the identity on extended reals, and the accumulator starts at zero), which is the dense
  product's entry at the row the block's row p comes from.
  An epilogue kernel adds the bias along the columns to a block of 1000 rows, and keeps an entry that is at least zero
  and multiplies any other by its column's slope: the reference layer's last step at the same entry.
-/
import proofs.«138660_j82712480186991_1_alg».proof.Proof.Gen.KernelIdeal.Skeleton
import proofs.«138660_j82712480186991_1_alg».proof.Proof.RefStages
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Hand.Blocks

open Idealize.ShloMosaic Idealize.ShloMosaic.TcCoe Idealize.ShloMosaic.ValueIdx
open Cert.Hand.Ref Cert.ReferenceIdeal.ReadP

/-! ## The product kernel's operand indices, coordinate by coordinate -/

theorem lhs_row (j : Cert.KernelIdeal.S1000x512.Idx) (q : Cert.KernelIdeal.dot_S1000x512_S512x512_S1000x512_1_0_0_1_n_n.contr.Idx) :
    (Cert.KernelIdeal.dot_S1000x512_S512x512_S1000x512_1_0_0_1_n_n.lhsIdx j q 0).val = (j 0).val := by
  unfold DotDims.lhsIdx
  rw [dif_neg (show ¬(0 : Fin Cert.KernelIdeal.S1000x512.rank) ∈ Cert.KernelIdeal.dot_S1000x512_S512x512_S1000x512_1_0_0_1_n_n.lhsBatch by decide), dif_pos (show (0 : Fin Cert.KernelIdeal.S1000x512.rank) ∈ Cert.KernelIdeal.dot_S1000x512_S512x512_S1000x512_1_0_0_1_n_n.lhsNonContracting by decide)]
  rfl
theorem lhs_contr (j : Cert.KernelIdeal.S1000x512.Idx) (q : Cert.KernelIdeal.dot_S1000x512_S512x512_S1000x512_1_0_0_1_n_n.contr.Idx) :
    (Cert.KernelIdeal.dot_S1000x512_S512x512_S1000x512_1_0_0_1_n_n.lhsIdx j q 1).val = (q ⟨0, by decide⟩).val :=
  Cert.KernelIdeal.dot_S1000x512_S512x512_S1000x512_1_0_0_1_n_n.lhsIdx_val_of_single rfl j q
theorem rhs_contr (j : Cert.KernelIdeal.S1000x512.Idx) (q : Cert.KernelIdeal.dot_S1000x512_S512x512_S1000x512_1_0_0_1_n_n.contr.Idx) :
    (Cert.KernelIdeal.dot_S1000x512_S512x512_S1000x512_1_0_0_1_n_n.rhsIdx j q 0).val = (q ⟨0, by decide⟩).val :=
  Cert.KernelIdeal.dot_S1000x512_S512x512_S1000x512_1_0_0_1_n_n.rhsIdx_val_of_single rfl j q
theorem rhs_col (j : Cert.KernelIdeal.S1000x512.Idx) (q : Cert.KernelIdeal.dot_S1000x512_S512x512_S1000x512_1_0_0_1_n_n.contr.Idx) :
    (Cert.KernelIdeal.dot_S1000x512_S512x512_S1000x512_1_0_0_1_n_n.rhsIdx j q 1).val = (j 1).val := by
  unfold DotDims.rhsIdx
  rw [dif_neg (show ¬(1 : Fin Cert.KernelIdeal.S512x512.rank) ∈ Cert.KernelIdeal.dot_S1000x512_S512x512_S1000x512_1_0_0_1_n_n.rhsBatch by decide), dif_pos (show (1 : Fin Cert.KernelIdeal.S512x512.rank) ∈ Cert.KernelIdeal.dot_S1000x512_S512x512_S1000x512_1_0_0_1_n_n.rhsNonContracting by decide)]
  rfl

/-! ## The product kernel at one entry -/

/-- If the block `x` holds, in its row `j 0`, the row `i 0` of `X`, and `w` is `Wm`, then the kernel's entry `j` is
    the dense product's entry `i`, for `i` in column `j 1`. -/
theorem mm_block (x : Vec Ideal Cert.KernelIdeal.S1000x512 .f32) (w : Vec Ideal Cert.KernelIdeal.S512x512 .f32)
    (X : (⟨Cert.ReferenceIdeal.S10000x512, .f32⟩ : BufTy).Contents (Elt Ideal)) (Wm : (⟨Cert.ReferenceIdeal.S512x512, .f32⟩ : BufTy).Contents (Elt Ideal)) (j : Cert.KernelIdeal.S1000x512.Idx) (i : Cert.ReferenceIdeal.S10000x512.Idx)
    (hx : ∀ (y : Cert.KernelIdeal.S1000x512.Idx) (k : Cert.ReferenceIdeal.S10000x512.Idx), (y 0).val = (j 0).val → (k 0).val = (i 0).val → (k 1).val = (y 1).val → x y = X k)
    (hw : ∀ (y : Cert.KernelIdeal.S512x512.Idx) (k : Cert.ReferenceIdeal.S512x512.Idx), (k 0).val = (y 0).val → (k 1).val = (y 1).val → w y = Wm k)
    (h1 : (i 1).val = (j 1).val) :
    Cert.KernelIdeal.Gen.k0_pay1 (F := Ideal) x w j = mm (F := Ideal) X Wm i := by
  unfold Cert.KernelIdeal.Gen.k0_pay1
  refine (Ideal.matmul_constant_zero_apply Cert.KernelIdeal.dot_S1000x512_S512x512_S1000x512_1_0_0_1_n_n none _ _ j).trans ?_
  refine Eq.trans ?_ (val_main_v7_apply X Wm i).symm
  rw [← Equiv.sum_comp (ValueIdx.contrEquiv1 Cert.KernelIdeal.dot_S1000x512_S512x512_S1000x512_1_0_0_1_n_n 512 rfl rfl).symm]
  refine Finset.sum_congr rfl fun k _ => ?_
  have hk := ValueIdx.contrEquiv1_symm_val Cert.KernelIdeal.dot_S1000x512_S512x512_S1000x512_1_0_0_1_n_n 512 rfl rfl k
  show x _ * w _ = X _ * Wm _
  rw [hx _ (lidx_main_v7 i k) (lhs_row _ _) rfl ((lhs_contr _ _).trans hk).symm,
    hw _ (ridx_main_v7 i k) ((rhs_contr _ _).trans hk).symm (h1.trans (rhs_col _ _).symm)]

/-- The second and third product kernels are the first (their extra cast of the block to its own shape is the identity). -/
theorem k2_eq (x : Vec Ideal Cert.KernelIdeal.S1000x512 .f32) (w : Vec Ideal Cert.KernelIdeal.S512x512 .f32) :
    Cert.KernelIdeal.Gen.k2_pay1 (F := Ideal) x w = Cert.KernelIdeal.Gen.k0_pay1 (F := Ideal) x w := by
  unfold Cert.KernelIdeal.Gen.k2_pay1 Cert.KernelIdeal.Gen.k0_pay1
  simp only [shapeCast_self]
theorem k4_eq (x : Vec Ideal Cert.KernelIdeal.S1000x512 .f32) (w : Vec Ideal Cert.KernelIdeal.S512x512 .f32) :
    Cert.KernelIdeal.Gen.k4_pay1 (F := Ideal) x w = Cert.KernelIdeal.Gen.k0_pay1 (F := Ideal) x w := by
  unfold Cert.KernelIdeal.Gen.k4_pay1 Cert.KernelIdeal.Gen.k0_pay1
  simp only [shapeCast_self]

/-! ## The epilogue kernel at one entry -/

/-- A length-512 vector laid along the columns of a 1000-row block. -/
abbrev rowK (b : Vec Ideal Cert.KernelIdeal.S512 .f32) : FVec Ideal Cert.KernelIdeal.S1000x512 .f32 :=
  broadcastTo Cert.KernelIdeal.S1000x512 (shapeCast Cert.KernelIdeal.S1x512 b Cert.KernelIdeal.Facts₀.shapeCasts_S512_S1x512) Cert.KernelIdeal.Facts₀.broadcasts_S1x512_S1000x512

theorem rowK_apply (b : Vec Ideal Cert.KernelIdeal.S512 .f32) (p : Fin 1000) (q : Fin 512) : rowK b (ix2 p q) = b (ix1 q) :=
  (broadcastTo_1b_ab_apply (shapeCast Cert.KernelIdeal.S1x512 b Cert.KernelIdeal.Facts₀.shapeCasts_S512_S1x512) Cert.KernelIdeal.Facts₀.broadcasts_S1x512_S1000x512 p q).trans
    (shapeCast_a_1a_apply b Cert.KernelIdeal.Facts₀.shapeCasts_S512_S1x512 0 q)

theorem k1_eq (b a : Vec Ideal Cert.KernelIdeal.S512 .f32) (z : Vec Ideal Cert.KernelIdeal.S1000x512 .f32) :
    Cert.KernelIdeal.Gen.k1_pay1 (F := Ideal) b a z
      = select (cmpf .oge (addf z (rowK b)) (broadcast Cert.KernelIdeal.S1000x512 (Scalar.ofBits (F := Ideal) .f32 0x00000000#32))) (addf z (rowK b)) (mulf (rowK a) (addf z (rowK b))) := by
  unfold Cert.KernelIdeal.Gen.k1_pay1
  simp only [shapeCast_self]

/-- If the block `z` holds at `(p, q)` the entry `i` of `Z`, and the bias and slope vectors hold at `q` what `B` and `A`
    hold at `i`'s column, the kernel's entry `(p, q)` is the layer's last step at `i`. -/
theorem act_block (b a : Vec Ideal Cert.KernelIdeal.S512 .f32) (z : Vec Ideal Cert.KernelIdeal.S1000x512 .f32)
    (Z : (⟨Cert.ReferenceIdeal.S10000x512, .f32⟩ : BufTy).Contents (Elt Ideal)) (B A : (⟨Cert.ReferenceIdeal.S512, .f32⟩ : BufTy).Contents (Elt Ideal)) (p : Fin 1000) (q : Fin 512) (i : Cert.ReferenceIdeal.S10000x512.Idx)
    (hz : z (ix2 p q) = Z i) (hb : b (ix1 q) = B (col i)) (ha : a (ix1 q) = A (col i)) :
    Cert.KernelIdeal.Gen.k1_pay1 (F := Ideal) b a z (ix2 p q) = act (F := Ideal) Z B A i := by
  rw [act_apply, ← hz, ← hb, ← ha, k1_eq, select_apply, cmpf_apply, ← rowK_apply b p q, ← rowK_apply a p q]
  rfl

theorem k3_eq (b a : Vec Ideal Cert.KernelIdeal.S512 .f32) (z : Vec Ideal Cert.KernelIdeal.S1000x512 .f32) :
    Cert.KernelIdeal.Gen.k3_pay1 (F := Ideal) b a z = Cert.KernelIdeal.Gen.k1_pay1 (F := Ideal) b a z := rfl
theorem k5_eq (b a : Vec Ideal Cert.KernelIdeal.S512 .f32) (z : Vec Ideal Cert.KernelIdeal.S1000x512 .f32) :
    Cert.KernelIdeal.Gen.k5_pay1 (F := Ideal) b a z = Cert.KernelIdeal.Gen.k1_pay1 (F := Ideal) b a z := rfl

end Cert.Hand.Blocks

end
-- ==== Proof.ZeroOffsets.lean ====
/-
  Two facts about zero offsets that every region's read of a whole staging buffer uses.
-/
import Mathlib.Data.Fin.VecNotation

namespace Cert.Hand.Regions

theorem hz : (![0, 0] : Fin 2 → Nat) = fun _ => 0 := funext fun a => match a with | ⟨0, _⟩ => rfl | ⟨1, _⟩ => rfl
theorem hz1 : (![0] : Fin 1 → Nat) = fun _ => 0 := funext fun a => match a with | ⟨0, _⟩ => rfl

end Cert.Hand.Regions
-- ==== Proof.RegionProduct1.lean ====
/-
  Region 0 of the kernel: the first layer's dense product, as one function of the arrays the region finds.
-/
import proofs.«138660_j82712480186991_1_alg».proof.Proof.Gen.KernelIdeal.Frame
import proofs.«138660_j82712480186991_1_alg».proof.Proof.KernelBlocks
import proofs.«138660_j82712480186991_1_alg».proof.Proof.ZeroOffsets

set_option maxRecDepth 16384

noncomputable section

namespace Cert.Hand.Regions

open Idealize.ShloMosaic Idealize.ShloMosaic.TcCoe Idealize.ShloMosaic.ValueIdx
open Idealize.ShloMosaic.Pipeline (Dat)
open Cert.KernelIdeal Cert.KernelIdeal.Gen
open Cert.Hand.Ref Cert.Hand.Blocks

variable (V : (c : Dev nD) → (b : Ref sig .tc) → Buf (Elt Ideal) ((c : Thread nD τ).loc b))

/-! ## Region 0: a product kernel -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the dense product of the two arrays the region finds. -/
theorem flushed0 (c : Dev nD) (t : Fin cfg0.N) :
    (dat0 V c).flushed 2 t = ((cfg0.win 2).blk t).view.read (Elt Ideal) (mm (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x512) hz]
  obtain ⟨e0, e1, e2, e3, e4, e5⟩ := idx_facts0 t
  funext j
  show k0_pay1 (iblk0 V c 0 t) (iblk0 V c 1 t) j = mm (F := Ideal) (V c main_arg0) (V c main_arg2) (((cfg0.win 2).blk t).view.emb j)
  refine mm_block _ _ _ _ j _ ?_ ?_ ?_
  · intro y k h0 hk0 hk1
    have hk0' : (k 0).val = win0_2.index t (0 : Fin 2) * 1000 + 1 * (j 0).val := hk0
    show V c main_arg0 (((cfg0.win 0).blk t).view.emb y) = V c main_arg0 k
    refine congrArg (V c main_arg0) (funext fun a => Fin.ext ?_)
    match a with
    | ⟨0, _⟩ => show win0_0.index t (0 : Fin 2) * 1000 + 1 * (y 0).val = (k 0).val; omega
    | ⟨1, _⟩ => show win0_0.index t (1 : Fin 2) * 512 + 1 * (y 1).val = (k 1).val; omega
  · intro y k hk0 hk1
    show V c main_arg2 (((cfg0.win 1).blk t).view.emb y) = V c main_arg2 k
    refine congrArg (V c main_arg2) (funext fun a => Fin.ext ?_)
    match a with
    | ⟨0, _⟩ => show win0_1.index t (0 : Fin 2) * 512 + 1 * (y 0).val = (k 0).val; omega
    | ⟨1, _⟩ => show win0_1.index t (1 : Fin 2) * 512 + 1 * (y 1).val = (k 1).val; omega
  · show win0_2.index t (1 : Fin 2) * 512 + 1 * (j 1).val = (j 1).val; omega

theorem mem_blk0 (t : Fin cfg0.N) (i : S10000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v32).slice (win0_2.rect t)).set ↔ _
  rw [View.set_slice_whole, Rect.mem_set_unit]
  exact Iff.rfl

/-- The ten blocks of 1000 rows tile the result array, so it ends at the dense product. -/
theorem final0 (c : Dev nD) : (dat0 V c).arrAt 2 cfg0.N = mm (F := Ideal) (V c main_arg0) (V c main_arg2) :=
  (dat0 V c).arrAt_eq_of_cover 2 _ (fun t _ => flushed0 V c t) fun i => by
    have hi0 : (i 0).val < 10000 := (i 0).isLt
    have hi1 : (i 1).val < 512 := (i 1).isLt
    have hN : cfg0.N = 10 := N_0
    have hN' : grid0.N = 10 := N_0
    refine ⟨⟨(i 0).val / 1000, by omega⟩, flush0_2 _, ?_⟩
    rw [mem_blk0]
    obtain ⟨e0, e1, e2, e3, e4, e5⟩ := idx_facts0 ⟨(i 0).val / 1000, by omega⟩
    have e4' : win0_2.index ⟨(i 0).val / 1000, by omega⟩ (0 : Fin 2) = (i 0).val / 1000 := e4
    intro a
    match a with
    | ⟨0, _⟩ => show win0_2.index _ (0 : Fin 2) * 1000 ≤ (i 0).val ∧ (i 0).val < win0_2.index _ (0 : Fin 2) * 1000 + 1000; omega
    | ⟨1, _⟩ => show win0_2.index _ (1 : Fin 2) * 512 ≤ (i 1).val ∧ (i 1).val < win0_2.index _ (1 : Fin 2) * 512 + 512; omega

end Cert.Hand.Regions

end
-- ==== Proof.RegionProduct2.lean ====
/-
  Region 2 of the kernel: the second layer's dense product, as one function of the arrays the region finds.
-/
import proofs.«138660_j82712480186991_1_alg».proof.Proof.Gen.KernelIdeal.Frame
import proofs.«138660_j82712480186991_1_alg».proof.Proof.KernelBlocks
import proofs.«138660_j82712480186991_1_alg».proof.Proof.ZeroOffsets

set_option maxRecDepth 16384

noncomputable section

namespace Cert.Hand.Regions

open Idealize.ShloMosaic Idealize.ShloMosaic.TcCoe Idealize.ShloMosaic.ValueIdx
open Idealize.ShloMosaic.Pipeline (Dat)
open Cert.KernelIdeal Cert.KernelIdeal.Gen
open Cert.Hand.Ref Cert.Hand.Blocks

variable (V : (c : Dev nD) → (b : Ref sig .tc) → Buf (Elt Ideal) ((c : Thread nD τ).loc b))

/-! ## Region 2: a product kernel -/

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the dense product of the two arrays the region finds. -/
theorem flushed2 (c : Dev nD) (t : Fin cfg2.N) :
    (dat2 V c).flushed 2 t = ((cfg2.win 2).blk t).view.read (Elt Ideal) (mm (F := Ideal) (V c main_v46) (V c main_arg5)) := by
  show (cfg2.win 2).cut (grid2.coords t) ((dat2 V c).after 2 t) = _
  rw [after2_2]
  unfold out2_2
  rw [View.canon_unit_zero hz]
  simp only [View.ld_unit_zero (S := S1000x512) hz, View.ld_unit_zero (S := S512x512) hz]
  obtain ⟨e0, e1, e2, e3, e4, e5⟩ := idx_facts2 t
  funext j
  show k2_pay1 (iblk2 V c 0 t) (iblk2 V c 1 t) j = mm (F := Ideal) (V c main_v46) (V c main_arg5) (((cfg2.win 2).blk t).view.emb j)
  rw [k2_eq]
  refine mm_block _ _ _ _ j _ ?_ ?_ ?_
  · intro y k h0 hk0 hk1
    have hk0' : (k 0).val = win2_2.index t (0 : Fin 2) * 1000 + 1 * (j 0).val := hk0
    show V c main_v46 (((cfg2.win 0).blk t).view.emb y) = V c main_v46 k
    refine congrArg (V c main_v46) (funext fun a => Fin.ext ?_)
    match a with
    | ⟨0, _⟩ => show win2_0.index t (0 : Fin 2) * 1000 + 1 * (y 0).val = (k 0).val; omega
    | ⟨1, _⟩ => show win2_0.index t (1 : Fin 2) * 512 + 1 * (y 1).val = (k 1).val; omega
  · intro y k hk0 hk1
    show V c main_arg5 (((cfg2.win 1).blk t).view.emb y) = V c main_arg5 k
    refine congrArg (V c main_arg5) (funext fun a => Fin.ext ?_)
    match a with
    | ⟨0, _⟩ => show win2_1.index t (0 : Fin 2) * 512 + 1 * (y 0).val = (k 0).val; omega
    | ⟨1, _⟩ => show win2_1.index t (1 : Fin 2) * 512 + 1 * (y 1).val = (k 1).val; omega
  · show win2_2.index t (1 : Fin 2) * 512 + 1 * (j 1).val = (j 1).val; omega

theorem mem_blk2 (t : Fin cfg2.N) (i : S10000x512.Idx) :
    i ∈ ((cfg2.win 2).blk t).view.set ↔ ∀ a : Fin 2, win2_2.index t a * S1000x512.size a ≤ (i a).val ∧ (i a).val < win2_2.index t a * S1000x512.size a + S1000x512.size a := by
  show i ∈ ((View.whole main_v47).slice (win2_2.rect t)).set ↔ _
  rw [View.set_slice_whole, Rect.mem_set_unit]
  exact Iff.rfl

/-- The ten blocks of 1000 rows tile the result array, so it ends at the dense product. -/
theorem final2 (c : Dev nD) : (dat2 V c).arrAt 2 cfg2.N = mm (F := Ideal) (V c main_v46) (V c main_arg5) :=
  (dat2 V c).arrAt_eq_of_cover 2 _ (fun t _ => flushed2 V c t) fun i => by
    have hi0 : (i 0).val < 10000 := (i 0).isLt
    have hi1 : (i 1).val < 512 := (i 1).isLt
    have hN : cfg2.N = 10 := N_2
    have hN' : grid2.N = 10 := N_2
    refine ⟨⟨(i 0).val / 1000, by omega⟩, flush2_2 _, ?_⟩
    rw [mem_blk2]
    obtain ⟨e0, e1, e2, e3, e4, e5⟩ := idx_facts2 ⟨(i 0).val / 1000, by omega⟩
    have e4' : win2_2.index ⟨(i 0).val / 1000, by omega⟩ (0 : Fin 2) = (i 0).val / 1000 := e4
    intro a
    match a with
    | ⟨0, _⟩ => show win2_2.index _ (0 : Fin 2) * 1000 ≤ (i 0).val ∧ (i 0).val < win2_2.index _ (0 : Fin 2) * 1000 + 1000; omega
    | ⟨1, _⟩ => show win2_2.index _ (1 : Fin 2) * 512 ≤ (i 1).val ∧ (i 1).val < win2_2.index _ (1 : Fin 2) * 512 + 512; omega

end Cert.Hand.Regions

end
-- ==== Proof.RegionProduct3.lean ====
/-
  Region 4 of the kernel: the third layer's dense product, as one function of the arrays the region finds.
-/
import proofs.«138660_j82712480186991_1_alg».proof.Proof.Gen.KernelIdeal.Frame
import proofs.«138660_j82712480186991_1_alg».proof.Proof.KernelBlocks
import proofs.«138660_j82712480186991_1_alg».proof.Proof.ZeroOffsets

set_option maxRecDepth 16384

noncomputable section

namespace Cert.Hand.Regions

open Idealize.ShloMosaic Idealize.ShloMosaic.TcCoe Idealize.ShloMosaic.ValueIdx
open Idealize.ShloMosaic.Pipeline (Dat)
open Cert.KernelIdeal Cert.KernelIdeal.Gen
open Cert.Hand.Ref Cert.Hand.Blocks

variable (V : (c : Dev nD) → (b : Ref sig .tc) → Buf (Elt Ideal) ((c : Thread nD τ).loc b))

/-! ## Region 4: a product kernel -/

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point `t` writes back is block `t` of the dense product of the two arrays the region finds. -/
theorem flushed4 (c : Dev nD) (t : Fin cfg4.N) :
    (dat4 V c).flushed 2 t = ((cfg4.win 2).blk t).view.read (Elt Ideal) (mm (F := Ideal) (V c main_v61) (V c main_arg8)) := by
  show (cfg4.win 2).cut (grid4.coords t) ((dat4 V c).after 2 t) = _
  rw [after4_2]
  unfold out4_2
  rw [View.canon_unit_zero hz]
  simp only [View.ld_unit_zero (S := S1000x512) hz, View.ld_unit_zero (S := S512x512) hz]
  obtain ⟨e0, e1, e2, e3, e4, e5⟩ := idx_facts4 t
  funext j
  show k4_pay1 (iblk4 V c 0 t) (iblk4 V c 1 t) j = mm (F := Ideal) (V c main_v61) (V c main_arg8) (((cfg4.win 2).blk t).view.emb j)
  rw [k4_eq]
  refine mm_block _ _ _ _ j _ ?_ ?_ ?_
  · intro y k h0 hk0 hk1
    have hk0' : (k 0).val = win4_2.index t (0 : Fin 2) * 1000 + 1 * (j 0).val := hk0
    show V c main_v61 (((cfg4.win 0).blk t).view.emb y) = V c main_v61 k
    refine congrArg (V c main_v61) (funext fun a => Fin.ext ?_)
    match a with
    | ⟨0, _⟩ => show win4_0.index t (0 : Fin 2) * 1000 + 1 * (y 0).val = (k 0).val; omega
    | ⟨1, _⟩ => show win4_0.index t (1 : Fin 2) * 512 + 1 * (y 1).val = (k 1).val; omega
  · intro y k hk0 hk1
    show V c main_arg8 (((cfg4.win 1).blk t).view.emb y) = V c main_arg8 k
    refine congrArg (V c main_arg8) (funext fun a => Fin.ext ?_)
    match a with
    | ⟨0, _⟩ => show win4_1.index t (0 : Fin 2) * 512 + 1 * (y 0).val = (k 0).val; omega
    | ⟨1, _⟩ => show win4_1.index t (1 : Fin 2) * 512 + 1 * (y 1).val = (k 1).val; omega
  · show win4_2.index t (1 : Fin 2) * 512 + 1 * (j 1).val = (j 1).val; omega

theorem mem_blk4 (t : Fin cfg4.N) (i : S10000x512.Idx) :
    i ∈ ((cfg4.win 2).blk t).view.set ↔ ∀ a : Fin 2, win4_2.index t a * S1000x512.size a ≤ (i a).val ∧ (i a).val < win4_2.index t a * S1000x512.size a + S1000x512.size a := by
  show i ∈ ((View.whole main_v62).slice (win4_2.rect t)).set ↔ _
  rw [View.set_slice_whole, Rect.mem_set_unit]
  exact Iff.rfl

/-- The ten blocks of 1000 rows tile the result array, so it ends at the dense product. -/
theorem final4 (c : Dev nD) : (dat4 V c).arrAt 2 cfg4.N = mm (F := Ideal) (V c main_v61) (V c main_arg8) :=
  (dat4 V c).arrAt_eq_of_cover 2 _ (fun t _ => flushed4 V c t) fun i => by
    have hi0 : (i 0).val < 10000 := (i 0).isLt
    have hi1 : (i 1).val < 512 := (i 1).isLt
    have hN : cfg4.N = 10 := N_4
    have hN' : grid4.N = 10 := N_4
    refine ⟨⟨(i 0).val / 1000, by omega⟩, flush4_2 _, ?_⟩
    rw [mem_blk4]
    obtain ⟨e0, e1, e2, e3, e4, e5⟩ := idx_facts4 ⟨(i 0).val / 1000, by omega⟩
    have e4' : win4_2.index ⟨(i 0).val / 1000, by omega⟩ (0 : Fin 2) = (i 0).val / 1000 := e4
    intro a
    match a with
    | ⟨0, _⟩ => show win4_2.index _ (0 : Fin 2) * 1000 ≤ (i 0).val ∧ (i 0).val < win4_2.index _ (0 : Fin 2) * 1000 + 1000; omega
    | ⟨1, _⟩ => show win4_2.index _ (1 : Fin 2) * 512 ≤ (i 1).val ∧ (i 1).val < win4_2.index _ (1 : Fin 2) * 512 + 512; omega

end Cert.Hand.Regions

end
-- ==== Proof.RegionEpilogue1.lean ====
/-
  Region 1 of the kernel: the first layer's bias and rectifier, as one function of the arrays the region finds.
-/
import proofs.«138660_j82712480186991_1_alg».proof.Proof.Gen.KernelIdeal.Frame
import proofs.«138660_j82712480186991_1_alg».proof.Proof.KernelBlocks
import proofs.«138660_j82712480186991_1_alg».proof.Proof.ZeroOffsets

set_option maxRecDepth 16384

noncomputable section

namespace Cert.Hand.Regions

open Idealize.ShloMosaic Idealize.ShloMosaic.TcCoe Idealize.ShloMosaic.ValueIdx
open Idealize.ShloMosaic.Pipeline (Dat)
open Cert.KernelIdeal Cert.KernelIdeal.Gen
open Cert.Hand.Ref Cert.Hand.Blocks

variable (V : (c : Dev nD) → (b : Ref sig .tc) → Buf (Elt Ideal) ((c : Thread nD τ).loc b))

/-! ## Region 1: an epilogue kernel -/

theorem idx_facts1 : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

/-- What grid point `t` writes back is block `t` of the layer's last step applied to the three arrays the region finds. -/
theorem flushed1 (c : Dev nD) (t : Fin cfg1.N) :
    (dat1 V c).flushed 3 t = ((cfg1.win 3).blk t).view.read (Elt Ideal) (act (F := Ideal) (V c main_v45) (V c main_arg3) (V c main_arg4)) := by
  show (cfg1.win 3).cut (grid1.coords t) ((dat1 V c).after 3 t) = _
  rw [after1_3]
  unfold out1_3
  rw [View.canon_unit_zero hz]
  simp only [View.ld_unit_zero (S := S1000x512) hz, View.ld_unit_zero (S := S512) hz1]
  obtain ⟨e0, e1, e2, e3, e4, e5⟩ := idx_facts1 t
  funext j
  obtain ⟨p, q, rfl⟩ : ∃ (p : Fin 1000) (q : Fin 512), j = ix2 p q := ⟨j 0, j 1, eq_ix2 j⟩
  show k1_pay1 (iblk1 V c 1 t) (iblk1 V c 2 t) (iblk1 V c 0 t) (ix2 p q)
    = act (F := Ideal) (V c main_v45) (V c main_arg3) (V c main_arg4) (((cfg1.win 3).blk t).view.emb (ix2 p q))
  refine act_block _ _ _ _ _ _ p q _ ?_ ?_ ?_
  · show V c main_v45 (((cfg1.win 0).blk t).view.emb (ix2 p q)) = V c main_v45 (((cfg1.win 3).blk t).view.emb (ix2 p q))
    refine congrArg (V c main_v45) (funext fun a => Fin.ext ?_)
    match a with
    | ⟨0, _⟩ => show win1_0.index t (0 : Fin 2) * 1000 + 1 * p.val = win1_3.index t (0 : Fin 2) * 1000 + 1 * p.val; omega
    | ⟨1, _⟩ => show win1_0.index t (1 : Fin 2) * 512 + 1 * q.val = win1_3.index t (1 : Fin 2) * 512 + 1 * q.val; omega
  · show V c main_arg3 (((cfg1.win 1).blk t).view.emb (ix1 q)) = V c main_arg3 (col (((cfg1.win 3).blk t).view.emb (ix2 p q)))
    refine congrArg (V c main_arg3) (funext fun a => Fin.ext ?_)
    match a with
    | ⟨0, _⟩ => show win1_1.index t (0 : Fin 1) * 512 + 1 * q.val = win1_3.index t (1 : Fin 2) * 512 + 1 * q.val; omega
  · show V c main_arg4 (((cfg1.win 2).blk t).view.emb (ix1 q)) = V c main_arg4 (col (((cfg1.win 3).blk t).view.emb (ix2 p q)))
    refine congrArg (V c main_arg4) (funext fun a => Fin.ext ?_)
    match a with
    | ⟨0, _⟩ => show win1_2.index t (0 : Fin 1) * 512 + 1 * q.val = win1_3.index t (1 : Fin 2) * 512 + 1 * q.val; omega

theorem mem_blk1 (t : Fin cfg1.N) (i : S10000x512.Idx) :
    i ∈ ((cfg1.win 3).blk t).view.set ↔ ∀ a : Fin 2, win1_3.index t a * S1000x512.size a ≤ (i a).val ∧ (i a).val < win1_3.index t a * S1000x512.size a + S1000x512.size a := by
  show i ∈ ((View.whole main_v46).slice (win1_3.rect t)).set ↔ _
  rw [View.set_slice_whole, Rect.mem_set_unit]
  exact Iff.rfl

/-- The ten blocks of 1000 rows tile the result array, so it ends at the layer's last step of the whole arrays. -/
theorem final1 (c : Dev nD) : (dat1 V c).arrAt 3 cfg1.N = act (F := Ideal) (V c main_v45) (V c main_arg3) (V c main_arg4) :=
  (dat1 V c).arrAt_eq_of_cover 3 _ (fun t _ => flushed1 V c t) fun i => by
    have hi0 : (i 0).val < 10000 := (i 0).isLt
    have hi1 : (i 1).val < 512 := (i 1).isLt
    have hN : cfg1.N = 10 := N_1
    have hN' : grid1.N = 10 := N_1
    refine ⟨⟨(i 0).val / 1000, by omega⟩, flush1_3 _, ?_⟩
    rw [mem_blk1]
    obtain ⟨e0, e1, e2, e3, e4, e5⟩ := idx_facts1 ⟨(i 0).val / 1000, by omega⟩
    have e4' : win1_3.index ⟨(i 0).val / 1000, by omega⟩ (0 : Fin 2) = (i 0).val / 1000 := e4
    intro a
    match a with
    | ⟨0, _⟩ => show win1_3.index _ (0 : Fin 2) * 1000 ≤ (i 0).val ∧ (i 0).val < win1_3.index _ (0 : Fin 2) * 1000 + 1000; omega
    | ⟨1, _⟩ => show win1_3.index _ (1 : Fin 2) * 512 ≤ (i 1).val ∧ (i 1).val < win1_3.index _ (1 : Fin 2) * 512 + 512; omega

end Cert.Hand.Regions

end
-- ==== Proof.RegionEpilogue2.lean ====
/-
  Region 3 of the kernel: the second layer's bias and rectifier, as one function of the arrays the region finds.
-/
import proofs.«138660_j82712480186991_1_alg».proof.Proof.Gen.KernelIdeal.Frame
import proofs.«138660_j82712480186991_1_alg».proof.Proof.KernelBlocks
import proofs.«138660_j82712480186991_1_alg».proof.Proof.ZeroOffsets

set_option maxRecDepth 16384

noncomputable section

namespace Cert.Hand.Regions

open Idealize.ShloMosaic Idealize.ShloMosaic.TcCoe Idealize.ShloMosaic.ValueIdx
open Idealize.ShloMosaic.Pipeline (Dat)
open Cert.KernelIdeal Cert.KernelIdeal.Gen
open Cert.Hand.Ref Cert.Hand.Blocks

variable (V : (c : Dev nD) → (b : Ref sig .tc) → Buf (Elt Ideal) ((c : Thread nD τ).loc b))

/-! ## Region 3: an epilogue kernel -/

theorem idx_facts3 : ∀ t : Fin cfg3.N, win3_0.index t (0 : Fin 2) = t.val ∧ win3_0.index t (1 : Fin 2) = 0
    ∧ win3_1.index t (0 : Fin 1) = 0 ∧ win3_2.index t (0 : Fin 1) = 0
    ∧ win3_3.index t (0 : Fin 2) = t.val ∧ win3_3.index t (1 : Fin 2) = 0 :=
  (by decide +kernel : ∀ t : Fin grid3.N, _)

/-- What grid point `t` writes back is block `t` of the layer's last step applied to the three arrays the region finds. -/
theorem flushed3 (c : Dev nD) (t : Fin cfg3.N) :
    (dat3 V c).flushed 3 t = ((cfg3.win 3).blk t).view.read (Elt Ideal) (act (F := Ideal) (V c main_v60) (V c main_arg6) (V c main_arg7)) := by
  show (cfg3.win 3).cut (grid3.coords t) ((dat3 V c).after 3 t) = _
  rw [after3_3]
  unfold out3_3
  rw [View.canon_unit_zero hz]
  simp only [View.ld_unit_zero (S := S1000x512) hz, View.ld_unit_zero (S := S512) hz1]
  obtain ⟨e0, e1, e2, e3, e4, e5⟩ := idx_facts3 t
  funext j
  obtain ⟨p, q, rfl⟩ : ∃ (p : Fin 1000) (q : Fin 512), j = ix2 p q := ⟨j 0, j 1, eq_ix2 j⟩
  show k3_pay1 (iblk3 V c 1 t) (iblk3 V c 2 t) (iblk3 V c 0 t) (ix2 p q)
    = act (F := Ideal) (V c main_v60) (V c main_arg6) (V c main_arg7) (((cfg3.win 3).blk t).view.emb (ix2 p q))
  rw [k3_eq]
  refine act_block _ _ _ _ _ _ p q _ ?_ ?_ ?_
  · show V c main_v60 (((cfg3.win 0).blk t).view.emb (ix2 p q)) = V c main_v60 (((cfg3.win 3).blk t).view.emb (ix2 p q))
    refine congrArg (V c main_v60) (funext fun a => Fin.ext ?_)
    match a with
    | ⟨0, _⟩ => show win3_0.index t (0 : Fin 2) * 1000 + 1 * p.val = win3_3.index t (0 : Fin 2) * 1000 + 1 * p.val; omega
    | ⟨1, _⟩ => show win3_0.index t (1 : Fin 2) * 512 + 1 * q.val = win3_3.index t (1 : Fin 2) * 512 + 1 * q.val; omega
  · show V c main_arg6 (((cfg3.win 1).blk t).view.emb (ix1 q)) = V c main_arg6 (col (((cfg3.win 3).blk t).view.emb (ix2 p q)))
    refine congrArg (V c main_arg6) (funext fun a => Fin.ext ?_)
    match a with
    | ⟨0, _⟩ => show win3_1.index t (0 : Fin 1) * 512 + 1 * q.val = win3_3.index t (1 : Fin 2) * 512 + 1 * q.val; omega
  · show V c main_arg7 (((cfg3.win 2).blk t).view.emb (ix1 q)) = V c main_arg7 (col (((cfg3.win 3).blk t).view.emb (ix2 p q)))
    refine congrArg (V c main_arg7) (funext fun a => Fin.ext ?_)
    match a with
    | ⟨0, _⟩ => show win3_2.index t (0 : Fin 1) * 512 + 1 * q.val = win3_3.index t (1 : Fin 2) * 512 + 1 * q.val; omega

theorem mem_blk3 (t : Fin cfg3.N) (i : S10000x512.Idx) :
    i ∈ ((cfg3.win 3).blk t).view.set ↔ ∀ a : Fin 2, win3_3.index t a * S1000x512.size a ≤ (i a).val ∧ (i a).val < win3_3.index t a * S1000x512.size a + S1000x512.size a := by
  show i ∈ ((View.whole main_v61).slice (win3_3.rect t)).set ↔ _
  rw [View.set_slice_whole, Rect.mem_set_unit]
  exact Iff.rfl

/-- The ten blocks of 1000 rows tile the result array, so it ends at the layer's last step of the whole arrays. -/
theorem final3 (c : Dev nD) : (dat3 V c).arrAt 3 cfg3.N = act (F := Ideal) (V c main_v60) (V c main_arg6) (V c main_arg7) :=
  (dat3 V c).arrAt_eq_of_cover 3 _ (fun t _ => flushed3 V c t) fun i => by
    have hi0 : (i 0).val < 10000 := (i 0).isLt
    have hi1 : (i 1).val < 512 := (i 1).isLt
    have hN : cfg3.N = 10 := N_3
    have hN' : grid3.N = 10 := N_3
    refine ⟨⟨(i 0).val / 1000, by omega⟩, flush3_3 _, ?_⟩
    rw [mem_blk3]
    obtain ⟨e0, e1, e2, e3, e4, e5⟩ := idx_facts3 ⟨(i 0).val / 1000, by omega⟩
    have e4' : win3_3.index ⟨(i 0).val / 1000, by omega⟩ (0 : Fin 2) = (i 0).val / 1000 := e4
    intro a
    match a with
    | ⟨0, _⟩ => show win3_3.index _ (0 : Fin 2) * 1000 ≤ (i 0).val ∧ (i 0).val < win3_3.index _ (0 : Fin 2) * 1000 + 1000; omega
    | ⟨1, _⟩ => show win3_3.index _ (1 : Fin 2) * 512 ≤ (i 1).val ∧ (i 1).val < win3_3.index _ (1 : Fin 2) * 512 + 512; omega

end Cert.Hand.Regions

end
-- ==== Proof.RegionEpilogue3.lean ====
/-
  Region 5 of the kernel: the third layer's bias and rectifier, as one function of the arrays the region finds.
-/
import proofs.«138660_j82712480186991_1_alg».proof.Proof.Gen.KernelIdeal.Frame
import proofs.«138660_j82712480186991_1_alg».proof.Proof.KernelBlocks
import proofs.«138660_j82712480186991_1_alg».proof.Proof.ZeroOffsets

set_option maxRecDepth 16384

noncomputable section

namespace Cert.Hand.Regions

open Idealize.ShloMosaic Idealize.ShloMosaic.TcCoe Idealize.ShloMosaic.ValueIdx
open Idealize.ShloMosaic.Pipeline (Dat)
open Cert.KernelIdeal Cert.KernelIdeal.Gen
open Cert.Hand.Ref Cert.Hand.Blocks

variable (V : (c : Dev nD) → (b : Ref sig .tc) → Buf (Elt Ideal) ((c : Thread nD τ).loc b))

/-! ## Region 5: an epilogue kernel -/

theorem idx_facts5 : ∀ t : Fin cfg5.N, win5_0.index t (0 : Fin 2) = t.val ∧ win5_0.index t (1 : Fin 2) = 0
    ∧ win5_1.index t (0 : Fin 1) = 0 ∧ win5_2.index t (0 : Fin 1) = 0
    ∧ win5_3.index t (0 : Fin 2) = t.val ∧ win5_3.index t (1 : Fin 2) = 0 :=
  (by decide +kernel : ∀ t : Fin grid5.N, _)

/-- What grid point `t` writes back is block `t` of the layer's last step applied to the three arrays the region finds. -/
theorem flushed5 (c : Dev nD) (t : Fin cfg5.N) :
    (dat5 V c).flushed 3 t = ((cfg5.win 3).blk t).view.read (Elt Ideal) (act (F := Ideal) (V c main_v75) (V c main_arg9) (V c main_arg10)) := by
  show (cfg5.win 3).cut (grid5.coords t) ((dat5 V c).after 3 t) = _
  rw [after5_3]
  unfold out5_3
  rw [View.canon_unit_zero hz]
  simp only [View.ld_unit_zero (S := S1000x512) hz, View.ld_unit_zero (S := S512) hz1]
  obtain ⟨e0, e1, e2, e3, e4, e5⟩ := idx_facts5 t
  funext j
  obtain ⟨p, q, rfl⟩ : ∃ (p : Fin 1000) (q : Fin 512), j = ix2 p q := ⟨j 0, j 1, eq_ix2 j⟩
  show k5_pay1 (iblk5 V c 1 t) (iblk5 V c 2 t) (iblk5 V c 0 t) (ix2 p q)
    = act (F := Ideal) (V c main_v75) (V c main_arg9) (V c main_arg10) (((cfg5.win 3).blk t).view.emb (ix2 p q))
  rw [k5_eq]
  refine act_block _ _ _ _ _ _ p q _ ?_ ?_ ?_
  · show V c main_v75 (((cfg5.win 0).blk t).view.emb (ix2 p q)) = V c main_v75 (((cfg5.win 3).blk t).view.emb (ix2 p q))
    refine congrArg (V c main_v75) (funext fun a => Fin.ext ?_)
    match a with
    | ⟨0, _⟩ => show win5_0.index t (0 : Fin 2) * 1000 + 1 * p.val = win5_3.index t (0 : Fin 2) * 1000 + 1 * p.val; omega
    | ⟨1, _⟩ => show win5_0.index t (1 : Fin 2) * 512 + 1 * q.val = win5_3.index t (1 : Fin 2) * 512 + 1 * q.val; omega
  · show V c main_arg9 (((cfg5.win 1).blk t).view.emb (ix1 q)) = V c main_arg9 (col (((cfg5.win 3).blk t).view.emb (ix2 p q)))
    refine congrArg (V c main_arg9) (funext fun a => Fin.ext ?_)
    match a with
    | ⟨0, _⟩ => show win5_1.index t (0 : Fin 1) * 512 + 1 * q.val = win5_3.index t (1 : Fin 2) * 512 + 1 * q.val; omega
  · show V c main_arg10 (((cfg5.win 2).blk t).view.emb (ix1 q)) = V c main_arg10 (col (((cfg5.win 3).blk t).view.emb (ix2 p q)))
    refine congrArg (V c main_arg10) (funext fun a => Fin.ext ?_)
    match a with
    | ⟨0, _⟩ => show win5_2.index t (0 : Fin 1) * 512 + 1 * q.val = win5_3.index t (1 : Fin 2) * 512 + 1 * q.val; omega

theorem mem_blk5 (t : Fin cfg5.N) (i : S10000x512.Idx) :
    i ∈ ((cfg5.win 3).blk t).view.set ↔ ∀ a : Fin 2, win5_3.index t a * S1000x512.size a ≤ (i a).val ∧ (i a).val < win5_3.index t a * S1000x512.size a + S1000x512.size a := by
  show i ∈ ((View.whole main_v76).slice (win5_3.rect t)).set ↔ _
  rw [View.set_slice_whole, Rect.mem_set_unit]
  exact Iff.rfl

/-- The ten blocks of 1000 rows tile the result array, so it ends at the layer's last step of the whole arrays. -/
theorem final5 (c : Dev nD) : (dat5 V c).arrAt 3 cfg5.N = act (F := Ideal) (V c main_v75) (V c main_arg9) (V c main_arg10) :=
  (dat5 V c).arrAt_eq_of_cover 3 _ (fun t _ => flushed5 V c t) fun i => by
    have hi0 : (i 0).val < 10000 := (i 0).isLt
    have hi1 : (i 1).val < 512 := (i 1).isLt
    have hN : cfg5.N = 10 := N_5
    have hN' : grid5.N = 10 := N_5
    refine ⟨⟨(i 0).val / 1000, by omega⟩, flush5_3 _, ?_⟩
    rw [mem_blk5]
    obtain ⟨e0, e1, e2, e3, e4, e5⟩ := idx_facts5 ⟨(i 0).val / 1000, by omega⟩
    have e4' : win5_3.index ⟨(i 0).val / 1000, by omega⟩ (0 : Fin 2) = (i 0).val / 1000 := e4
    intro a
    match a with
    | ⟨0, _⟩ => show win5_3.index _ (0 : Fin 2) * 1000 ≤ (i 0).val ∧ (i 0).val < win5_3.index _ (0 : Fin 2) * 1000 + 1000; omega
    | ⟨1, _⟩ => show win5_3.index _ (1 : Fin 2) * 512 ≤ (i 1).val ∧ (i 1).val < win5_3.index _ (1 : Fin 2) * 512 + 512; omega

end Cert.Hand.Regions

end
-- ==== Proof.KeepsTactic.lean ====
/-
  A stretch of host operations changes only the buffers its operations write.
-/
import Idealize.ShloMosaic.Lib.StableHlo.Run

namespace Cert.Hand.Fold

open Idealize.ShloMosaic

/-- A stretch of host operations leaves a buffer it does not write as it found it. -/
macro "host_keeps " ops:ident b:ident : tactic => `(tactic| (
  refine StableHlo.after_of_forall_not_mem (b := Proc.devRef .tc $b) _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

end Cert.Hand.Fold
-- ==== Proof.KeptArgs.lean ====
/-
  The argument arrays, as each region that reads one finds it: no earlier stretch of host operations writes an
  argument, and no earlier region has it among its arrays, so it still holds its launch contents.
-/
import proofs.«138660_j82712480186991_1_alg».proof.Proof.Gen.KernelIdeal.Frame
import proofs.«138660_j82712480186991_1_alg».proof.Proof.KeepsTactic

set_option maxRecDepth 16384

noncomputable section

namespace Cert.Hand.Fold

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2 main_arg0
    _ = W1 m ρ c (Proc.devRef .tc main_arg0) := by host_keeps hostOps0_1 main_arg0
    _ = W0 m ρ c (Proc.devRef .tc main_arg0) := by host_keeps hostOps0 main_arg0
    _ = m ((c : Thread nD τ).loc main_arg0) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps0_2 main_arg2
    _ = W1 m ρ c (Proc.devRef .tc main_arg2) := by host_keeps hostOps0_1 main_arg2
    _ = W0 m ρ c (Proc.devRef .tc main_arg2) := by host_keeps hostOps0 main_arg2
    _ = m ((c : Thread nD τ).loc main_arg2) := rfl

theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by host_keeps hostOps1 main_arg3
    _ = W3 m ρ c (Proc.devRef .tc main_arg3) := W4_of_ne m ρ c main_arg3 (by decide)
    _ = W2 m ρ c (Proc.devRef .tc main_arg3) := by host_keeps hostOps0_2 main_arg3
    _ = W1 m ρ c (Proc.devRef .tc main_arg3) := by host_keeps hostOps0_1 main_arg3
    _ = W0 m ρ c (Proc.devRef .tc main_arg3) := by host_keeps hostOps0 main_arg3
    _ = m ((c : Thread nD τ).loc main_arg3) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by host_keeps hostOps1 main_arg4
    _ = W3 m ρ c (Proc.devRef .tc main_arg4) := W4_of_ne m ρ c main_arg4 (by decide)
    _ = W2 m ρ c (Proc.devRef .tc main_arg4) := by host_keeps hostOps0_2 main_arg4
    _ = W1 m ρ c (Proc.devRef .tc main_arg4) := by host_keeps hostOps0_1 main_arg4
    _ = W0 m ρ c (Proc.devRef .tc main_arg4) := by host_keeps hostOps0 main_arg4
    _ = m ((c : Thread nD τ).loc main_arg4) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps1 main_arg5
    _ = W3 m ρ c (Proc.devRef .tc main_arg5) := W4_of_ne m ρ c main_arg5 (by decide)
    _ = W2 m ρ c (Proc.devRef .tc main_arg5) := by host_keeps hostOps0_2 main_arg5
    _ = W1 m ρ c (Proc.devRef .tc main_arg5) := by host_keeps hostOps0_1 main_arg5
    _ = W0 m ρ c (Proc.devRef .tc main_arg5) := by host_keeps hostOps0 main_arg5
    _ = m ((c : Thread nD τ).loc main_arg5) := rfl

theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := by host_keeps hostOps3 main_arg6
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keeps hostOps1 main_arg6
    _ = W3 m ρ c (Proc.devRef .tc main_arg6) := W4_of_ne m ρ c main_arg6 (by decide)
    _ = W2 m ρ c (Proc.devRef .tc main_arg6) := by host_keeps hostOps0_2 main_arg6
    _ = W1 m ρ c (Proc.devRef .tc main_arg6) := by host_keeps hostOps0_1 main_arg6
    _ = W0 m ρ c (Proc.devRef .tc main_arg6) := by host_keeps hostOps0 main_arg6
    _ = m ((c : Thread nD τ).loc main_arg6) := rfl

theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := by host_keeps hostOps3 main_arg7
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keeps hostOps1 main_arg7
    _ = W3 m ρ c (Proc.devRef .tc main_arg7) := W4_of_ne m ρ c main_arg7 (by decide)
    _ = W2 m ρ c (Proc.devRef .tc main_arg7) := by host_keeps hostOps0_2 main_arg7
    _ = W1 m ρ c (Proc.devRef .tc main_arg7) := by host_keeps hostOps0_1 main_arg7
    _ = W0 m ρ c (Proc.devRef .tc main_arg7) := by host_keeps hostOps0 main_arg7
    _ = m ((c : Thread nD τ).loc main_arg7) := rfl

theorem W9_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := by host_keeps hostOps3 main_arg8
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_keeps hostOps1 main_arg8
    _ = W3 m ρ c (Proc.devRef .tc main_arg8) := W4_of_ne m ρ c main_arg8 (by decide)
    _ = W2 m ρ c (Proc.devRef .tc main_arg8) := by host_keeps hostOps0_2 main_arg8
    _ = W1 m ρ c (Proc.devRef .tc main_arg8) := by host_keeps hostOps0_1 main_arg8
    _ = W0 m ρ c (Proc.devRef .tc main_arg8) := by host_keeps hostOps0 main_arg8
    _ = m ((c : Thread nD τ).loc main_arg8) := rfl

theorem W11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := by host_keeps hostOps5 main_arg9
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by host_keeps hostOps3 main_arg9
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_keeps hostOps1 main_arg9
    _ = W3 m ρ c (Proc.devRef .tc main_arg9) := W4_of_ne m ρ c main_arg9 (by decide)
    _ = W2 m ρ c (Proc.devRef .tc main_arg9) := by host_keeps hostOps0_2 main_arg9
    _ = W1 m ρ c (Proc.devRef .tc main_arg9) := by host_keeps hostOps0_1 main_arg9
    _ = W0 m ρ c (Proc.devRef .tc main_arg9) := by host_keeps hostOps0 main_arg9
    _ = m ((c : Thread nD τ).loc main_arg9) := rfl

theorem W11_arg10 (c : Dev nD) : W11 m ρ c (Proc.devRef .tc main_arg10) = m ((c : Thread nD τ).loc main_arg10) :=
  calc W11 m ρ c (Proc.devRef .tc main_arg10)
    _ = W10 m ρ c (Proc.devRef .tc main_arg10) := by host_keeps hostOps5 main_arg10
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := by host_keeps hostOps3 main_arg10
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by host_keeps hostOps1 main_arg10
    _ = W3 m ρ c (Proc.devRef .tc main_arg10) := W4_of_ne m ρ c main_arg10 (by decide)
    _ = W2 m ρ c (Proc.devRef .tc main_arg10) := by host_keeps hostOps0_2 main_arg10
    _ = W1 m ρ c (Proc.devRef .tc main_arg10) := by host_keeps hostOps0_1 main_arg10
    _ = W0 m ρ c (Proc.devRef .tc main_arg10) := by host_keeps hostOps0 main_arg10
    _ = m ((c : Thread nD τ).loc main_arg10) := rfl

end Cert.Hand.Fold

end
-- ==== Proof.KeptEdges.lean ====
/-
  The edge list's source and target columns and the edges' normalisation are computed once, before the first
  region; every later stretch of host operations that reads them finds them as they were then.
-/
import proofs.«138660_j82712480186991_1_alg».proof.Proof.Gen.KernelIdeal.Frame
import proofs.«138660_j82712480186991_1_alg».proof.Proof.KeepsTactic

set_option maxRecDepth 16384

noncomputable section

namespace Cert.Hand.Fold

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem W4_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem W7_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1 main_v3
    _ = W3 m ρ c (Proc.devRef .tc main_v3) := W4_of_ne m ρ c main_v3 (by decide)

theorem W10_v3 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by host_keeps hostOps3 main_v3
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1 main_v3
    _ = W3 m ρ c (Proc.devRef .tc main_v3) := W4_of_ne m ρ c main_v3 (by decide)

theorem W4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem W7_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1 main_v6
    _ = W3 m ρ c (Proc.devRef .tc main_v6) := W4_of_ne m ρ c main_v6 (by decide)

theorem W10_v6 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by host_keeps hostOps3 main_v6
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1 main_v6
    _ = W3 m ρ c (Proc.devRef .tc main_v6) := W4_of_ne m ρ c main_v6 (by decide)

theorem W4_v31 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem W7_v31 (c : Dev nD) : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by host_keeps hostOps1 main_v31
    _ = W3 m ρ c (Proc.devRef .tc main_v31) := W4_of_ne m ρ c main_v31 (by decide)

theorem W10_v31 (c : Dev nD) : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := by host_keeps hostOps3 main_v31
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by host_keeps hostOps1 main_v31
    _ = W3 m ρ c (Proc.devRef .tc main_v31) := W4_of_ne m ρ c main_v31 (by decide)

end Cert.Hand.Fold

end
-- ==== Proof.EdgeData.lean ====
/-
  What the host operations before the first region leave: the extended edge list (the given edges, then one
  self-loop per node) as a source column and a target column, and each edge's normalisation (the product of the
  inverse square roots of its two end nodes' degrees) — the same functions of the edge array as in the reference.
  The three stretches are read one after the other, each from what the one before left.
-/
import proofs.«138660_j82712480186991_1_alg».proof.Proof.Gen.KernelIdeal.Frame
import proofs.«138660_j82712480186991_1_alg».proof.Proof.RefStages
import proofs.«138660_j82712480186991_1_alg».proof.Proof.KeepsTactic

set_option maxRecDepth 16384

noncomputable section

namespace Cert.Hand.Fold

open Idealize.ShloMosaic Idealize.ShloMosaic.TcCoe Idealize.SL.Sem
open Cert.KernelIdeal Cert.KernelIdeal.Gen
open Cert.ReferenceIdeal.ReadP

variable (m : (ℓ : Loc nD τ sig) → Buf (Elt Ideal) ℓ) (ρ : Dev nD → PrngReg)

/-! ## After the first stretch: the edge columns, and the degrees' comparison with zero and inverse square root -/

theorem W1_src (c : Dev nD) : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results_simp
  rfl

theorem W1_dst (c : Dev nD) : W1 m ρ c (Proc.devRef .tc main_v6) = val_main_v6 (F := Ideal) (m ((c : Thread nD τ).loc main_arg1)) := by
  show StableHlo.after hostOps0 (W0 m ρ c) (Proc.devRef .tc main_v6) = _
  dsimp only [hostOps0]
  after_results_simp
  rfl

theorem W1_pos (c : Dev nD) : W1 m ρ c (Proc.devRef .tc main_v12) = val_main_v13 (F := Ideal) (m ((c : Thread nD τ).loc main_arg1)) := by
  show StableHlo.after hostOps0 (W0 m ρ c) (Proc.devRef .tc main_v12) = _
  dsimp only [hostOps0]
  after_results_simp
  rfl

theorem W1_rsq (c : Dev nD) : W1 m ρ c (Proc.devRef .tc main_v15) = val_main_v16 (F := Ideal) (m ((c : Thread nD τ).loc main_arg1)) := by
  show StableHlo.after hostOps0 (W0 m ρ c) (Proc.devRef .tc main_v15) = _
  dsimp only [hostOps0]
  after_results_simp
  rfl

theorem W1_zero (c : Dev nD) : W1 m ρ c (Proc.devRef .tc main_cst_3) = val_main_cst_3 (F := Ideal) := by
  show StableHlo.after hostOps0 (W0 m ρ c) (Proc.devRef .tc main_cst_3) = _
  dsimp only [hostOps0]
  after_results_simp
  rfl

/-! ## After the second stretch: the inverse square root where the degree is positive, zero elsewhere -/

theorem W2_dinv (c : Dev nD) : W2 m ρ c (Proc.devRef .tc main_v16) = val_main_v17 (F := Ideal) (m ((c : Thread nD τ).loc main_arg1)) := by
  have h12 := W1_pos m ρ c
  have h15 := W1_rsq m ρ c
  have hc := W1_zero m ρ c
  show StableHlo.after hostOps0_1 (W1 m ρ c) (Proc.devRef .tc main_v16) = _
  generalize W1 m ρ c = Wa at h12 h15 hc ⊢
  dsimp only [hostOps0_1]
  after_results_simp
  rw [h12, h15, hc]
  unfold val_main_v17 val_main_call0_v1 val_main_call0_v0
  simp only [StableHlo.TRef.toBuf, StableHlo.TRef.ofBuf, cast_eq, id_eq]

theorem W2_src (c : Dev nD) : W2 m ρ c (Proc.devRef .tc main_v3) = val_main_v3 (F := Ideal) (m ((c : Thread nD τ).loc main_arg1)) :=
  (show W2 m ρ c (Proc.devRef .tc main_v3) = W1 m ρ c (Proc.devRef .tc main_v3) by host_keeps hostOps0_1 main_v3).trans (W1_src m ρ c)
theorem W2_dst (c : Dev nD) : W2 m ρ c (Proc.devRef .tc main_v6) = val_main_v6 (F := Ideal) (m ((c : Thread nD τ).loc main_arg1)) :=
  (show W2 m ρ c (Proc.devRef .tc main_v6) = W1 m ρ c (Proc.devRef .tc main_v6) by host_keeps hostOps0_1 main_v6).trans (W1_dst m ρ c)

/-! ## After the third stretch: each edge's normalisation -/

theorem W3_nrm (c : Dev nD) : W3 m ρ c (Proc.devRef .tc main_v31) = val_main_v32 (F := Ideal) (m ((c : Thread nD τ).loc main_arg1)) := by
  have h16 := W2_dinv m ρ c
  have h3 := W2_src m ρ c
  have h6 := W2_dst m ρ c
  show StableHlo.after hostOps0_2 (W2 m ρ c) (Proc.devRef .tc main_v31) = _
  generalize W2 m ρ c = Wa at h16 h3 h6 ⊢
  dsimp only [hostOps0_2]
  after_results_simp
  rw [h16, h3, h6]
  rfl

theorem W3_src (c : Dev nD) : W3 m ρ c (Proc.devRef .tc main_v3) = val_main_v3 (F := Ideal) (m ((c : Thread nD τ).loc main_arg1)) :=
  (show W3 m ρ c (Proc.devRef .tc main_v3) = W2 m ρ c (Proc.devRef .tc main_v3) by host_keeps hostOps0_2 main_v3).trans (W2_src m ρ c)
theorem W3_dst (c : Dev nD) : W3 m ρ c (Proc.devRef .tc main_v6) = val_main_v6 (F := Ideal) (m ((c : Thread nD τ).loc main_arg1)) :=
  (show W3 m ρ c (Proc.devRef .tc main_v6) = W2 m ρ c (Proc.devRef .tc main_v6) by host_keeps hostOps0_2 main_v6).trans (W2_dst m ρ c)

end Cert.Hand.Fold

end
-- ==== Proof.Fold.lean ====
/-
  The kernel's buffers, boundary by boundary.  Each product region leaves the dense product of the arrays it finds;
  the host operations after it gather, scale and sum the product's rows along the edge list exactly as the
  reference does; each epilogue region leaves bias and rectifier of that sum.  Three times over, the result array
  ends at the reference's three-layer function of the argument arrays.
-/
import proofs.«138660_j82712480186991_1_alg».proof.Proof.Gen.KernelIdeal.Frame
import proofs.«138660_j82712480186991_1_alg».proof.Proof.RegionProduct1
import proofs.«138660_j82712480186991_1_alg».proof.Proof.RegionProduct2
import proofs.«138660_j82712480186991_1_alg».proof.Proof.RegionProduct3
import proofs.«138660_j82712480186991_1_alg».proof.Proof.RegionEpilogue1
import proofs.«138660_j82712480186991_1_alg».proof.Proof.RegionEpilogue2
import proofs.«138660_j82712480186991_1_alg».proof.Proof.RegionEpilogue3
import proofs.«138660_j82712480186991_1_alg».proof.Proof.KeptArgs
import proofs.«138660_j82712480186991_1_alg».proof.Proof.KeptEdges
import proofs.«138660_j82712480186991_1_alg».proof.Proof.EdgeData

set_option maxRecDepth 16384

noncomputable section

namespace Cert.Hand.Fold

open Idealize.ShloMosaic Idealize.ShloMosaic.TcCoe Idealize.SL.Sem
open Cert.KernelIdeal Cert.KernelIdeal.Gen
open Cert.ReferenceIdeal.ReadP Cert.Hand.Ref

variable (m : (ℓ : Loc nD τ sig) → Buf (Elt Ideal) ℓ) (ρ : Dev nD → PrngReg)

theorem prod1 (c : Dev nD) : W4 m ρ c (Proc.devRef .tc main_v32) = mm (F := Ideal) (m ((c : Thread nD τ).loc main_arg0)) (m ((c : Thread nD τ).loc main_arg2)) :=
  (W4_arr m ρ c 2).trans ((Regions.final0 (V3 m ρ) c).trans (by
    rw [show V3 m ρ c main_arg0 = _ from W3_arg0 m ρ c, show V3 m ρ c main_arg2 = _ from W3_arg2 m ρ c]))

theorem sum1 (c : Dev nD) : W5 m ρ c (Proc.devRef .tc main_v45) = agg (F := Ideal) (m ((c : Thread nD τ).loc main_arg1)) (mm (F := Ideal) (m ((c : Thread nD τ).loc main_arg0)) (m ((c : Thread nD τ).loc main_arg2))) := by
  show StableHlo.after hostOps1 (W4 m ρ c) (Proc.devRef .tc main_v45) = _
  dsimp only [hostOps1]
  after_results_simp
  rw [prod1 m ρ c, W4_v3 m ρ c, W4_v6 m ρ c, W4_v31 m ρ c, W3_src m ρ c, W3_dst m ρ c, W3_nrm m ρ c]
  rfl

theorem layer1 (c : Dev nD) : W6 m ρ c (Proc.devRef .tc main_v46) = (layer (F := Ideal) (m ((c : Thread nD τ).loc main_arg1)) (m ((c : Thread nD τ).loc main_arg0)) (m ((c : Thread nD τ).loc main_arg2)) (m ((c : Thread nD τ).loc main_arg3)) (m ((c : Thread nD τ).loc main_arg4))) :=
  (W6_arr m ρ c 3).trans ((Regions.final1 (V5 m ρ) c).trans (by
    rw [show V5 m ρ c main_v45 = _ from sum1 m ρ c, show V5 m ρ c main_arg3 = _ from W5_arg3 m ρ c,
      show V5 m ρ c main_arg4 = _ from W5_arg4 m ρ c]))

theorem prod2 (c : Dev nD) : W7 m ρ c (Proc.devRef .tc main_v47) = mm (F := Ideal) (layer (F := Ideal) (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) :=
  (W7_arr m ρ c 2).trans ((Regions.final2 (V6 m ρ) c).trans (by
    rw [show V6 m ρ c main_v46 = _ from layer1 m ρ c, show V6 m ρ c main_arg5 = _ from W6_arg5 m ρ c]))

theorem sum2 (c : Dev nD) : W8 m ρ c (Proc.devRef .tc main_v60) = agg (F := Ideal) (m ((c : Thread nD τ).loc main_arg1)) (mm (F := Ideal) (layer (F := Ideal) (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5))) := by
  show StableHlo.after hostOps3 (W7 m ρ c) (Proc.devRef .tc main_v60) = _
  dsimp only [hostOps3]
  after_results_simp
  rw [prod2 m ρ c, W7_v3 m ρ c, W7_v6 m ρ c, W7_v31 m ρ c, W3_src m ρ c, W3_dst m ρ c, W3_nrm m ρ c]
  rfl

theorem layer2 (c : Dev nD) : W9 m ρ c (Proc.devRef .tc main_v61) = (layer (F := Ideal) (m ((c : Thread nD τ).loc main_arg1)) (layer (F := Ideal) (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) :=
  (W9_arr m ρ c 3).trans ((Regions.final3 (V8 m ρ) c).trans (by
    rw [show V8 m ρ c main_v60 = _ from sum2 m ρ c, show V8 m ρ c main_arg6 = _ from W8_arg6 m ρ c,
      show V8 m ρ c main_arg7 = _ from W8_arg7 m ρ c]))

theorem prod3 (c : Dev nD) : W10 m ρ c (Proc.devRef .tc main_v62) = mm (F := Ideal) (layer (F := Ideal) (m ((c : Thread nD τ).loc main_arg1)) (layer (F := Ideal) (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) (m ((c : Thread nD τ).loc main_arg8)) :=
  (W10_arr m ρ c 2).trans ((Regions.final4 (V9 m ρ) c).trans (by
    rw [show V9 m ρ c main_v61 = _ from layer2 m ρ c, show V9 m ρ c main_arg8 = _ from W9_arg8 m ρ c]))

theorem sum3 (c : Dev nD) : W11 m ρ c (Proc.devRef .tc main_v75) = agg (F := Ideal) (m ((c : Thread nD τ).loc main_arg1)) (mm (F := Ideal) (layer (F := Ideal) (m ((c : Thread nD τ).loc main_arg1)) (layer (F := Ideal) (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) (m ((c : Thread nD τ).loc main_arg8))) := by
  show StableHlo.after hostOps5 (W10 m ρ c) (Proc.devRef .tc main_v75) = _
  dsimp only [hostOps5]
  after_results_simp
  rw [prod3 m ρ c, W10_v3 m ρ c, W10_v6 m ρ c, W10_v31 m ρ c, W3_src m ρ c, W3_dst m ρ c, W3_nrm m ρ c]
  rfl

theorem layer3 (c : Dev nD) : W12 m ρ c (Proc.devRef .tc main_v76) = (layer (F := Ideal) (m ((c : Thread nD τ).loc main_arg1)) (layer (F := Ideal) (m ((c : Thread nD τ).loc main_arg1)) (layer (F := Ideal) (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg10))) :=
  (W12_arr m ρ c 3).trans ((Regions.final5 (V11 m ρ) c).trans (by
    rw [show V11 m ρ c main_v75 = _ from sum3 m ρ c, show V11 m ρ c main_arg9 = _ from W11_arg9 m ρ c,
      show V11 m ρ c main_arg10 = _ from W11_arg10 m ρ c]))

/-- The kernel's result array ends at the reference's function of the eleven argument arrays. -/
theorem result (c : Dev nD) : W12 m ρ c (Proc.devRef .tc main_v76)
    = val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (layer3 m ρ c).trans (net_eq (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

end Cert.Hand.Fold

end
-- ==== Proof.lean ====
/-
  The certificate of a three-layer graph convolution network computed by six kernels (a dense product and a
  bias-and-rectifier epilogue per layer, each tiling the 10000 nodes in ten blocks of 1000 rows) against its
  reference in plain array operations.

  The mathematics.  With E the edge list extended by one self-loop per node, d the nodes' in-degrees under E and
  n(e) = d(src e)^(-1/2) · d(dst e)^(-1/2), a layer maps node features X to
      prelu_a ( Σ_{e : dst e = ·} n(e) · (X W)[src e] + b ).
  The kernel computes X W block by block (each block's product is the matching rows of the whole product, a sum of
  512 products per entry in both programs; the kernel's narrowing of its operands to bf16 is the identity on extended
  reals), applies the very same gather, scaling and scatter-add on the host, and adds the bias and rectifies block by
  block (entrywise operations, so each block is the matching rows of the whole).  The reference recomputes E, d and n
  in every layer and the kernel computes them once; they are the same functions of the edge array.  No law of
  arithmetic beyond the identity of the two sums' terms is used, so finiteness of the inputs plays no part.

  The ideal pass rewrote nothing, so the kernel's idealization is its own text read at the ideal instance.
-/
import proofs.«138660_j82712480186991_1_alg».proof.Defs
import proofs.«138660_j82712480186991_1_alg».proof.Proof.Gen.Kernel
import proofs.«138660_j82712480186991_1_alg».proof.Proof.Gen.Kernel.Frame
import proofs.«138660_j82712480186991_1_alg».proof.Proof.Gen.KernelIdeal
import proofs.«138660_j82712480186991_1_alg».proof.Proof.Gen.KernelIdeal.Frame
import proofs.«138660_j82712480186991_1_alg».proof.Proof.Gen.ReferenceIdeal
import proofs.«138660_j82712480186991_1_alg».proof.Proof.RunPatched
import proofs.«138660_j82712480186991_1_alg».proof.Proof.ReadPatched
import proofs.«138660_j82712480186991_1_alg».proof.Proof.Gen.Pre_finite_inputs
import proofs.«138660_j82712480186991_1_alg».proof.Proof.KernelRun
import proofs.«138660_j82712480186991_1_alg».proof.Proof.Fold
import Idealize.ShloMosaic.Adequacy
import Idealize.ShloMosaic.Init

set_option maxRecDepth 16384

noncomputable section

namespace Cert.Proof

open Idealize.ShloMosaic Idealize.SL.Sem

/-- Both idealized programs run; the kernel's result array ends at the last boundary's contents of its buffer, which is
    the reference's function of the argument arrays, and the reference's result is that function of its own arguments,
    which agree with the kernel's. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W12 m ρ c (Proc.devRef .tc Cert.KernelIdeal.main_v76),
    Cert.KernelIdeal.Hand.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  rw [Cert.ReferenceIdeal.ReadP.val_main_v164_eq]
  refine Eq.trans ?_ (Cert.Hand.Fold.result m ρ c).symm
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
